-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : IVec S11008x4096 32) (main_arg2 : FVec F S11008 .f32) (main_arg3 : FVec F S11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S11008x4096 : Shape := ⟨2, ![11008, 4096]⟩
abbrev S11008 : Shape := ⟨1, ![11008]⟩
abbrev S11008x1 : Shape := ⟨2, ![11008, 1]⟩
abbrev S1x11008 : Shape := ⟨2, ![1, 11008]⟩
abbrev S4096x11008 : Shape := ⟨2, ![4096, 11008]⟩
abbrev S2048x256 : Shape := ⟨2, ![2048, 256]⟩
abbrev S1408x256 : Shape := ⟨2, ![1408, 256]⟩
abbrev S1408x1 : Shape := ⟨2, ![1408, 1]⟩
abbrev S1x1408 : Shape := ⟨2, ![1, 1408]⟩
abbrev S2048x1408 : Shape := ⟨2, ![2048, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S4096x4096, .bf16⟩
  | .hbm, ⟨6, _⟩ => ⟨S11008x1, .f32⟩
  | .hbm, ⟨7, _⟩ => ⟨S11008x1, .f32⟩
  | .hbm, ⟨8, _⟩ => ⟨S1x11008, .f32⟩
  | .hbm, ⟨9, _⟩ => ⟨S4096x11008, .f32⟩
  | .local _ .vmem, ⟨0, _⟩ => ⟨S2048x256, .bf16⟩
  | .local _ .vmem, ⟨1, _⟩ => ⟨S2048x256, .bf16⟩
  | .local _ .vmem, ⟨2, _⟩ => ⟨S1408x256, .i32⟩
  | .local _ .vmem, ⟨3, _⟩ => ⟨S1408x256, .i32⟩
  | .local _ .vmem, ⟨4, _⟩ => ⟨S1408x1, .f32⟩
  | .local _ .vmem, ⟨5, _⟩ => ⟨S1408x1, .f32⟩
  | .local _ .vmem, ⟨6, _⟩ => ⟨S1408x1, .f32⟩
  | .local _ .vmem, ⟨7, _⟩ => ⟨S1408x1, .f32⟩
  | .local _ .vmem, ⟨8, _⟩ => ⟨S1x1408, .f32⟩
  | .local _ .vmem, ⟨9, _⟩ => ⟨S1x1408, .f32⟩
  | .local _ .vmem, ⟨10, _⟩ => ⟨S2048x1408, .f32⟩
  | .local _ .vmem, ⟨11, _⟩ => ⟨S2048x1408, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S11008_S11008x1 : S11008.ShapeCasts S11008x1
  shapeCasts_S11008_S1x11008 : S11008.ShapeCasts S1x11008
  inb_S2048x1408_S2048x1408_0_0 : ∀ a, (![0, 0] : Fin 2 → Nat) a + S2048x1408.size a ≤ S2048x1408.size a
  h_S2048x1408 : 0 < S2048x1408.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1408x256_S1408x256_0_0 : ∀ a, (![0, 0] : Fin 2 → Nat) a + S1408x256.size a ≤ S1408x256.size a
  h_S1408x256 : 0 < S1408x256.numel
  inb_S1408x1_S1408x1_0_0 : ∀ a, (![0, 0] : Fin 2 → Nat) a + S1408x1.size a ≤ S1408x1.size a
  h_S1408x1 : 0 < S1408x1.numel
  shapeCasts_S1408x1_S1408x1 : S1408x1.ShapeCasts S1408x1
  broadcasts_S1408x1_S1408x256 : S1408x1.Broadcasts S1408x256
  shapeCasts_S2048x1408_S2048x1408 : S2048x1408.ShapeCasts S2048x1408
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  broadcasts_S1x1408_S2048x1408 : S1x1408.Broadcasts S2048x1408
  dot_S2048x256_S1408x256_S2048x1408_1_1_0_0_n_n_wf : DotDims.WF S2048x256 S1408x256 S2048x1408 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .bf16 = 32 ∨ (Rect.block (s := S4096x4096) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1408x256.size a < S11008x4096.size a
  hwx0_1 : ∀ i : grid0.Coords, EltTy.bits .i32 = 32 ∨ (Rect.unit (s := S11008x4096) (fun a => cc0_transform_1 i a * S1408x256.size a) (fun a => (Pipeline.Clip.of (cc0_transform_1 i a) (S1408x256.size a) (S11008x4096.size a)).extent (S1408x256.size a)) fun a => Pipeline.Clip.inb (Pipeline.Clip.ok_of (hstart0_1 i a))).WholeWords (EltTy.packing .i32)
  hwxs0_1 : ∀ i : grid0.Coords, EltTy.bits .i32 = 32 ∨ (Rect.unit (s := S1408x256) (fun _ => 0) (fun a => (Pipeline.Clip.of (cc0_transform_1 i a) (S1408x256.size a) (S11008x4096.size a)).extent (S1408x256.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1408x1.size a < S11008x1.size a
  hwx0_2 : ∀ i : grid0.Coords, EltTy.bits .f32 = 32 ∨ (Rect.unit (s := S11008x1) (fun a => cc0_transform_2 i a * S1408x1.size a) (fun a => (Pipeline.Clip.of (cc0_transform_2 i a) (S1408x1.size a) (S11008x1.size a)).extent (S1408x1.size a)) fun a => Pipeline.Clip.inb (Pipeline.Clip.ok_of (hstart0_2 i a))).WholeWords (EltTy.packing .f32)
  hwxs0_2 : ∀ i : grid0.Coords, EltTy.bits .f32 = 32 ∨ (Rect.unit (s := S1408x1) (fun _ => 0) (fun a => (Pipeline.Clip.of (cc0_transform_2 i a) (S1408x1.size a) (S11008x1.size a)).extent (S1408x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1408x1.size a < S11008x1.size a
  hwx0_3 : ∀ i : grid0.Coords, EltTy.bits .f32 = 32 ∨ (Rect.unit (s := S11008x1) (fun a => cc0_transform_3 i a * S1408x1.size a) (fun a => (Pipeline.Clip.of (cc0_transform_3 i a) (S1408x1.size a) (S11008x1.size a)).extent (S1408x1.size a)) fun a => Pipeline.Clip.inb (Pipeline.Clip.ok_of (hstart0_3 i a))).WholeWords (EltTy.packing .f32)
  hwxs0_3 : ∀ i : grid0.Coords, EltTy.bits .f32 = 32 ∨ (Rect.unit (s := S1408x1) (fun _ => 0) (fun a => (Pipeline.Clip.of (cc0_transform_3 i a) (S1408x1.size a) (S11008x1.size a)).extent (S1408x1.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1408.size a < S1x11008.size a
  hwx0_4 : ∀ i : grid0.Coords, EltTy.bits .f32 = 32 ∨ (Rect.unit (s := S1x11008) (fun a => cc0_transform_4 i a * S1x1408.size a) (fun a => (Pipeline.Clip.of (cc0_transform_4 i a) (S1x1408.size a) (S1x11008.size a)).extent (S1x1408.size a)) fun a => Pipeline.Clip.inb (Pipeline.Clip.ok_of (hstart0_4 i a))).WholeWords (EltTy.packing .f32)
  hwxs0_4 : ∀ i : grid0.Coords, EltTy.bits .f32 = 32 ∨ (Rect.unit (s := S1x1408) (fun _ => 0) (fun a => (Pipeline.Clip.of (cc0_transform_4 i a) (S1x1408.size a) (S1x11008.size a)).extent (S1x1408.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048x1408.size a < S4096x11008.size a
  hwx0_5 : ∀ i : grid0.Coords, EltTy.bits .f32 = 32 ∨ (Rect.unit (s := S4096x11008) (fun a => cc0_transform_5 i a * S2048x1408.size a) (fun a => (Pipeline.Clip.of (cc0_transform_5 i a) (S2048x1408.size a) (S4096x11008.size a)).extent (S2048x1408.size a)) fun a => Pipeline.Clip.inb (Pipeline.Clip.ok_of (hstart0_5 i a))).WholeWords (EltTy.packing .f32)
  hwxs0_5 : ∀ i : grid0.Coords, EltTy.bits .f32 = 32 ∨ (Rect.unit (s := S2048x1408) (fun _ => 0) (fun a => (Pipeline.Clip.of (cc0_transform_5 i a) (S2048x1408.size a) (S4096x11008.size a)).extent (S2048x1408.size a)) fun a => (Nat.zero_add _).trans_le (Pipeline.Clip.extent_le (Pipeline.Clip.ok_of (hstart0_5 i a)))).WholeWords (EltTy.packing .f32)

variable [Facts₀]

def dot_S2048x256_S1408x256_S2048x1408_1_1_0_0_n_n : DotDims S2048x256 S1408x256 S2048x1408 where
  lhsContracting := [1]
  rhsContracting := [1]
  lhsNonContracting := [0]
  rhsNonContracting := [0]
  lhsBatch := []
  rhsBatch := []
  wf := dot_S2048x256_S1408x256_S2048x1408_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1408x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1408x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1408x1.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S1x1408.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v4) S2048x1408.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S11008 : Shape := ⟨1, ![11008]⟩
abbrev S11008x1 : Shape := ⟨2, ![11008, 1]⟩
abbrev S4096x11008 : Shape := ⟨2, ![4096, 11008]⟩
abbrev S1x11008 : Shape := ⟨2, ![1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S4096x11008, .f32⟩
  | .hbm, ⟨13, _⟩ => ⟨S1x11008, .f32⟩
  | .hbm, ⟨14, _⟩ => ⟨S4096x11008, .f32⟩
  | .hbm, ⟨15, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.BitsRuns.lean ====
/-
  The kernel body run once per control case, over any float instance.

  The body branches twice on the third grid coordinate k: at k = 0 it first zeroes the output block, and at k = 15 it
  adds the bias row after the product step. On the grid the two conditions never hold together, so three cases occur:
  first (k = 0), middle (0 < k < 15) and last (k = 15). Each run states what the output's staging buffer ends with as
  the list of the stores made into it, the five input buffers left as they were found.
-/
import proofs.«113607_j58660663329081_2_alg».proof.Proof.Gen.Kernel.Launch
import proofs.«113607_j58660663329081_2_alg».proof.Proof.Gen.Kernel.Skeleton
import proofs.«113607_j58660663329081_2_alg».proof.Proof.Gen.Kernel.Points
import proofs.«113607_j58660663329081_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, k = 0, as the body computes it from the grid coordinates. -/
abbrev condFirst (i : grid0.Coords) : Prop :=
  (Scalar.cmpi .ne (Scalar.extui (Scalar.cmpi .eq (BitVec.ofNat 32 (i 2).val) 0#32)) 0#32) = 1#1
/-- The second branch's condition, k = 15. -/
abbrev condLast (i : grid0.Coords) : Prop :=
  (Scalar.cmpi .ne (Scalar.extui (Scalar.cmpi .eq (BitVec.ofNat 32 (i 2).val) 15#32)) 0#32) = 1#1

/-- The grid is enumerated with k fastest: k = 0 exactly at the points ≡ 0 (mod 16), -/
theorem hcondFirst : ∀ t : Fin cfg0.N, condFirst (grid0.coords t) ↔ t.val % 16 = 0 :=
  (by decide +kernel : ∀ t : Fin grid0.N, condFirst (grid0.coords t) ↔ t.val % 16 = 0)
/-- and k = 15 exactly at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

set_option maxHeartbeats 1000000 in
/-- k = 0: the output block is zeroed, then the product of the two input blocks is added to it. -/
noncomputable def runFirst (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : condFirst i) (hc1 : ¬condLast i)
    (x0 : Vec F S2048x256 .bf16) (x1 : Vec F S1408x256 .i32) (x2 : Vec F S1408x1 .f32) (x3 : Vec F S1408x1 .f32) (x4 : Vec F S1x1408 .f32) :
    { L : List (View.Piece (Elt F) S2048x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E (cc0__qlinear_kernel i arg3 harg3 arg4 harg4 arg5 harg5 arg6 harg6 arg7 harg7 arg8 harg8) K } := by
  refine ⟨?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

set_option maxHeartbeats 1000000 in
/-- 0 < k < 15: the product of the two input blocks is added to what the output block held. -/
noncomputable def runMiddle (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : ¬condLast i)
    (x0 : Vec F S2048x256 .bf16) (x1 : Vec F S1408x256 .i32) (x2 : Vec F S1408x1 .f32) (x3 : Vec F S1408x1 .f32) (x4 : Vec F S1x1408 .f32)
    (xo : Vec F S2048x1408 .f32) :
    { L : List (View.Piece (Elt F) S2048x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E (cc0__qlinear_kernel i arg3 harg3 arg4 harg4 arg5 harg5 arg6 harg6 arg7 harg7 arg8 harg8) K } := by
  refine ⟨?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

set_option maxHeartbeats 1000000 in
/-- k = 15: the product is added to what the output block held, then the bias row is added to every row. -/
noncomputable def runLast (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : condLast i)
    (x0 : Vec F S2048x256 .bf16) (x1 : Vec F S1408x256 .i32) (x2 : Vec F S1408x1 .f32) (x3 : Vec F S1408x1 .f32) (x4 : Vec F S1x1408 .f32)
    (xo : Vec F S2048x1408 .f32) :
    { L : List (View.Piece (Elt F) S2048x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E (cc0__qlinear_kernel i arg3 harg3 arg4 harg4 arg5 harg5 arg6 harg6 arg7 harg7 arg8 harg8) K } := by
  refine ⟨?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.Body

end
-- ==== Proof.BitsFrame.lean ====
/-
  The frame of the kernel: @main runs to the end and leaves its five argument arrays as it found them.

  The proof data are relational. At the word level nothing can be said of what the body computes from the words a
  clipped block's buffer holds past the end of its array, and the frame does not ask: each window's relation between
  what the body found in its staging buffer and what it leaves there is the one that holds of any two contents. What
  the frame needs is only that an input array is never written back, and that the arrays no window stages bypass the
  region.
-/
import proofs.«113607_j58660663329081_2_alg».proof.Proof.BitsRuns

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core c: the arrays as the region finds them; of what the body leaves in a
    staging buffer nothing is asked; the invariant is the class's (the scoped rest and the generator register);
    nothing owed; full shares. -/
def rdat (c : Dev nD) : Pipeline.RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-! ## The body obligation -/

set_option maxHeartbeats 800000 in
/-- The body at any point, whatever its six staging buffers hold: the grid coordinate k selects the case (k = 0,
    0 < k < 15, k = 15), whose run hands the five input buffers back as found and the output's at the stores made
    into it; the invariant and what the core owes pass through untouched. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X)
            ∗ (∃ X, ⌜(rdat m c).after 5 t (Y 5) X⌝ ∗ owns (c : Thread nD τ) (st0_5 t) fullShare X))) := by
  rw [show (rdat m c).Φ t.succ = (rdat m c).Φ t.castSucc from rfl,
    show (rdat m c).owesAt () t.succ = (rdat m c).owesAt () t.castSucc from rfl]
  unfold bodyAt0
  by_cases h0 : t.val % 16 = 0
  · have hc0 : condFirst (grid0.coords t) := (hcondFirst t).mpr h0
    have hc1 : ¬condLast (grid0.coords t) := fun h => by have := (hcondLast t).mp h; omega
    iintro ⟨HΦ, Ho, H0, H1, H2, H3, H4, H5⟩
    iapply ((runFirst c (grid0.coords t) _ _ _ _ _ _ _ _ _ _ _ _ hc0 hc1 (Y 0) (Y 1) (Y 2) (Y 3) (Y 4)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%f, H5⟩⟩
    isplitl [HΦ]; · iexact HΦ
    isplitl [Ho]; · iexact Ho
    isplitl [H0]
    · iexists (Y 0); isplitr; · ipureintro; trivial
      iexact H0
    isplitl [H1]
    · iexists (Y 1); isplitr; · ipureintro; trivial
      iexact H1
    isplitl [H2]
    · iexists (Y 2); isplitr; · ipureintro; trivial
      iexact H2
    isplitl [H3]
    · iexists (Y 3); isplitr; · ipureintro; trivial
      iexact H3
    isplitl [H4]
    · iexists (Y 4); isplitr; · ipureintro; trivial
      iexact H4
    iexists _; isplitr
    swap
    · unfold owns; iexists _; isplitr
      swap; · iexact H5
      ipureintro; rfl
    ipureintro; trivial
  · have hc0 : ¬condFirst (grid0.coords t) := fun h => h0 ((hcondFirst t).mp h)
    by_cases h1 : t.val % 16 = 15
    · have hc1 : condLast (grid0.coords t) := (hcondLast t).mpr h1
      iintro ⟨HΦ, Ho, H0, H1, H2, H3, H4, H5⟩
      iapply ((runLast c (grid0.coords t) _ _ _ _ _ _ _ _ _ _ _ _ hc0 hc1 (Y 0) (Y 1) (Y 2) (Y 3) (Y 4) (Y 5)).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%f, H5⟩⟩
      isplitl [HΦ]; · iexact HΦ
      isplitl [Ho]; · iexact Ho
      isplitl [H0]
      · iexists (Y 0); isplitr; · ipureintro; trivial
        iexact H0
      isplitl [H1]
      · iexists (Y 1); isplitr; · ipureintro; trivial
        iexact H1
      isplitl [H2]
      · iexists (Y 2); isplitr; · ipureintro; trivial
        iexact H2
      isplitl [H3]
      · iexists (Y 3); isplitr; · ipureintro; trivial
        iexact H3
      isplitl [H4]
      · iexists (Y 4); isplitr; · ipureintro; trivial
        iexact H4
      iexists _; isplitr
      swap
      · unfold owns; iexists _; isplitr
        swap; · iexact H5
        ipureintro; rfl
      ipureintro; trivial
    · have hc1 : ¬condLast (grid0.coords t) := fun h => h1 ((hcondLast t).mp h)
      iintro ⟨HΦ, Ho, H0, H1, H2, H3, H4, H5⟩
      iapply ((runMiddle c (grid0.coords t) _ _ _ _ _ _ _ _ _ _ _ _ hc0 hc1 (Y 0) (Y 1) (Y 2) (Y 3) (Y 4) (Y 5)).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%f, H5⟩⟩
      isplitl [HΦ]; · iexact HΦ
      isplitl [Ho]; · iexact Ho
      isplitl [H0]
      · iexists (Y 0); isplitr; · ipureintro; trivial
        iexact H0
      isplitl [H1]
      · iexists (Y 1); isplitr; · ipureintro; trivial
        iexact H1
      isplitl [H2]
      · iexists (Y 2); isplitr; · ipureintro; trivial
        iexact H2
      isplitl [H3]
      · iexists (Y 3); isplitr; · ipureintro; trivial
        iexact H3
      isplitl [H4]
      · iexists (Y 4); isplitr; · ipureintro; trivial
        iexact H4
      iexists _; isplitr
      swap
      · unfold owns; iexists _; isplitr
        swap; · iexact H5
        ipureintro; rfl
      ipureintro; trivial

/-- The library's body obligation, at every point and for all contents of the staging buffers. -/
theorem body_obligation (c : Dev nD) :
    (rdat m c).BodyObligation (defs₀ (F := F)) Variants.none () Set.univ := fun t Y _ => by
  rw [Gen.bigSep_W0, Gen.bigSep_W0]
  exact sound_body m c t Y

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on
    the TensorCores terminates, and every final state has every array of the pipeline at some contents it may hold
    after every write-back and every other unscoped buffer as the region found it. -/
theorem run_main : θ_run defs (onTc (τ := τ) (main (F := F))) (s₀ m ρ) (Pipeline.RDat.FramePost cfg0 (rdat m) (Gen.V m)) :=
  Pipeline.RDat.θ_run_frame cfgs (0 : Fin 1) Gen.launch0 defs₀ Variants.none (rdat m) m ρ main
    (hbody := fun c => body_obligation m c) (hshare := fun c => (rdat m c).share_full fun _ => rfl)
    (howed := fun _ _ => rfl) (V := Gen.V m) (hmain := Gen.hmain m Variants.none) (hA := fun _ _ => rfl)
    (hΦ := fun _ _ => rfl)

/-- THE FRAME. The weight array is window 1's, an input: an input array is never written back, so it ends at its entry
    contents, which no host operation before the region wrote. The other four arguments are no window's array (the
    windows stage their converted or reshaped copies): they bypass the region, and no host operation wrote them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (Gen.V_main_arg0 m c),
      ((congrFun ((rdat m c).ArrAt_in 1 rfl cfg0.N) _).mp ((h c).1 1)).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c)⟩) (run_main m ρ)

end Cert.Kernel.Body

end
-- ==== Proof.LibWindowCut.lean ====
/-
  A staging block whose leading part a transfer moves, read at one element.

  A clipped window moves only the leading part of its block (the part inside the array). Two contents of the block with the
  same leading part agree at every element of it, and a block filled on its leading part reads, there, what it was filled
  with. Both say that an element whose every coordinate is below the moved size is an element of the leading part.
-/
import Idealize.ShloMosaic.Lib.Pipeline

namespace Idealize.ShloMosaic.Pipeline.Window

variable {sig : RefSig} {G : Grid} (w : Window sig G)

/-- Contents that are cut alike agree wherever every coordinate is below the moved size. -/
theorem eq_of_cut_eq {α : Type} (i : G.Coords) {X Y : w.block.Idx → α} (h : w.cut i X = w.cut i Y) (j : w.block.Idx)
    (hj : ∀ a, (j a).val < w.xsize i a) : X j = Y j := by
  have e : w.xinj i (fun a => ⟨(j a).val, hj a⟩) = j := funext fun a => Fin.ext rfl
  rw [← e]
  exact congrFun h _

/-- A filled block, where every coordinate is below the moved size, reads what it was filled with. -/
theorem fill_apply_of_lt {α : Type} (i : G.Coords) (d : w.block.Idx → α) (g : (w.xblock i).Idx → α) (j : w.block.Idx)
    (hj : ∀ a, (j a).val < w.xsize i a) : w.fill i d g j = g (fun a => ⟨(j a).val, hj a⟩) := by
  unfold fill
  rw [dif_pos ((w.moved_iff i j).mpr hj)]

end Idealize.ShloMosaic.Pipeline.Window
-- ==== Proof.IdealBlocks.lean ====
/-
  Where the blocks of a grid point sit in their arrays.

  A point of the grid (2, 8, 16) has coordinates (i, j, k), k fastest. Its x block is rows 2048·i… and columns 256·k… of
  x; its weight block is rows 1408·j… and columns 256·k… of the weights; its scale, zero and bias blocks are entries
  1408·j… of those vectors; its output block is rows 2048·i… and columns 1408·j… of the result. The arrays have 11008
  rows (entries, columns) along the axis tiled by 1408, so at j = 7 only the first 1152 of the 1408 lie inside: the
  transfers move that leading part only. Moving from a point to the next one with the same (i, j) only advances k.
-/
import proofs.«113607_j58660663329081_2_alg».proof.Proof.Gen.KernelIdeal.Launch
import proofs.«113607_j58660663329081_2_alg».proof.Proof.Gen.KernelIdeal.Points
import proofs.«113607_j58660663329081_2_alg».proof.Proof.Gen.KernelIdeal.Frame
import proofs.«113607_j58660663329081_2_alg».proof.Proof.LibWindowCut
import Idealize.ShloMosaic.Lib.ValueIdx
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The grid coordinates of a point: row block, column block, contraction block. -/
def gi (t : Fin cfg0.N) : Fin 2 := grid0.coords t 0
def gj (t : Fin cfg0.N) : Fin 8 := grid0.coords t 1
def gk (t : Fin cfg0.N) : Fin 16 := grid0.coords t 2

/-- k is the point's number modulo 16. -/
theorem gk_val : ∀ t : Fin cfg0.N, (gk t).val = t.val % 16 :=
  (by decide +kernel : ∀ t : Fin grid0.N, (grid0.coords t 2).val = t.val % 16)

/-- The point before one with k ≠ 0 has the same (i, j) and k one less. -/
theorem coords_pred : ∀ t : Fin cfg0.N, t.val % 16 ≠ 0 →
    gi ⟨t.val - 1, Nat.lt_of_le_of_lt (Nat.sub_le _ _) t.isLt⟩ = gi t ∧ gj ⟨t.val - 1, Nat.lt_of_le_of_lt (Nat.sub_le _ _) t.isLt⟩ = gj t
      ∧ (gk ⟨t.val - 1, Nat.lt_of_le_of_lt (Nat.sub_le _ _) t.isLt⟩).val + 1 = (gk t).val :=
  (by decide +kernel : ∀ t : Fin grid0.N, t.val % 16 ≠ 0 →
    grid0.coords ⟨t.val - 1, Nat.lt_of_le_of_lt (Nat.sub_le _ _) t.isLt⟩ 0 = grid0.coords t 0
      ∧ grid0.coords ⟨t.val - 1, Nat.lt_of_le_of_lt (Nat.sub_le _ _) t.isLt⟩ 1 = grid0.coords t 1
      ∧ (grid0.coords ⟨t.val - 1, Nat.lt_of_le_of_lt (Nat.sub_le _ _) t.isLt⟩ 2).val + 1 = (grid0.coords t 2).val)

/-- The block indices of the six windows at a point. -/
theorem index_0 : ∀ t : Fin cfg0.N, win0_0.index t 0 = (gi t).val ∧ win0_0.index t 1 = (gk t).val :=
  (by decide +kernel : ∀ t : Fin grid0.N, win0_0.index t 0 = (grid0.coords t 0).val ∧ win0_0.index t 1 = (grid0.coords t 2).val)
theorem index_1 : ∀ t : Fin cfg0.N, win0_1.index t 0 = (gj t).val ∧ win0_1.index t 1 = (gk t).val :=
  (by decide +kernel : ∀ t : Fin grid0.N, win0_1.index t 0 = (grid0.coords t 1).val ∧ win0_1.index t 1 = (grid0.coords t 2).val)
theorem index_2 : ∀ t : Fin cfg0.N, win0_2.index t 0 = (gj t).val ∧ win0_2.index t 1 = 0 :=
  (by decide +kernel : ∀ t : Fin grid0.N, win0_2.index t 0 = (grid0.coords t 1).val ∧ win0_2.index t 1 = 0)
theorem index_3 : ∀ t : Fin cfg0.N, win0_3.index t 0 = (gj t).val ∧ win0_3.index t 1 = 0 :=
  (by decide +kernel : ∀ t : Fin grid0.N, win0_3.index t 0 = (grid0.coords t 1).val ∧ win0_3.index t 1 = 0)
theorem index_4 : ∀ t : Fin cfg0.N, win0_4.index t 0 = 0 ∧ win0_4.index t 1 = (gj t).val :=
  (by decide +kernel : ∀ t : Fin grid0.N, win0_4.index t 0 = 0 ∧ win0_4.index t 1 = (grid0.coords t 1).val)
theorem index_5 : ∀ t : Fin cfg0.N, win0_5.index t 0 = (gi t).val ∧ win0_5.index t 1 = (gj t).val :=
  (by decide +kernel : ∀ t : Fin grid0.N, win0_5.index t 0 = (grid0.coords t 0).val ∧ win0_5.index t 1 = (grid0.coords t 1).val)

/-- How much of each block the transfers move: all of it except along the axis tiled by 1408, where it is what is left
    of the 11008. -/
theorem xsize_1 : ∀ t : Fin cfg0.N, win0_1.xsize (grid0.coords t) 0 = min 1408 (11008 - (gj t).val * 1408) ∧ win0_1.xsize (grid0.coords t) 1 = 256 :=
  (by decide +kernel : ∀ t : Fin grid0.N, win0_1.xsize (grid0.coords t) 0 = min 1408 (11008 - (grid0.coords t 1).val * 1408) ∧ win0_1.xsize (grid0.coords t) 1 = 256)
theorem xsize_2 : ∀ t : Fin cfg0.N, win0_2.xsize (grid0.coords t) 0 = min 1408 (11008 - (gj t).val * 1408) ∧ win0_2.xsize (grid0.coords t) 1 = 1 :=
  (by decide +kernel : ∀ t : Fin grid0.N, win0_2.xsize (grid0.coords t) 0 = min 1408 (11008 - (grid0.coords t 1).val * 1408) ∧ win0_2.xsize (grid0.coords t) 1 = 1)
theorem xsize_3 : ∀ t : Fin cfg0.N, win0_3.xsize (grid0.coords t) 0 = min 1408 (11008 - (gj t).val * 1408) ∧ win0_3.xsize (grid0.coords t) 1 = 1 :=
  (by decide +kernel : ∀ t : Fin grid0.N, win0_3.xsize (grid0.coords t) 0 = min 1408 (11008 - (grid0.coords t 1).val * 1408) ∧ win0_3.xsize (grid0.coords t) 1 = 1)
theorem xsize_4 : ∀ t : Fin cfg0.N, win0_4.xsize (grid0.coords t) 0 = 1 ∧ win0_4.xsize (grid0.coords t) 1 = min 1408 (11008 - (gj t).val * 1408) :=
  (by decide +kernel : ∀ t : Fin grid0.N, win0_4.xsize (grid0.coords t) 0 = 1 ∧ win0_4.xsize (grid0.coords t) 1 = min 1408 (11008 - (grid0.coords t 1).val * 1408))
theorem xsize_5 : ∀ t : Fin cfg0.N, win0_5.xsize (grid0.coords t) 0 = 2048 ∧ win0_5.xsize (grid0.coords t) 1 = min 1408 (11008 - (gj t).val * 1408) :=
  (by decide +kernel : ∀ t : Fin grid0.N, win0_5.xsize (grid0.coords t) 0 = 2048 ∧ win0_5.xsize (grid0.coords t) 1 = min 1408 (11008 - (grid0.coords t 1).val * 1408))

end Cert.KernelIdeal.Body

end
-- ==== Proof.IdealReads.lean ====
/-
  The blocks of a grid point read at one element.

  Element (p, q) of the x block at the point (i, j, k) is x at (2048·i + p, 256·k + q). The other four input blocks may
  overhang their arrays; read where the transfer really lands — at a row (entry) c with 1408·j + c < 11008 — the weight
  block's (c, q) is the weights' (1408·j + c, 256·k + q), the scale and zero blocks' (c, 0) are those columns' entry
  1408·j + c, and the bias block's (0, c) is the bias row's entry 1408·j + c; what the buffers hold past the arrays' end
  does not enter.
-/
import proofs.«113607_j58660663329081_2_alg».proof.Proof.IdealBlocks

set_option maxRecDepth 16384

noncomputable section

namespace Cert.KernelIdeal.Body

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem gi_lt (t : Fin cfg0.N) : (gi t).val < 2 := (gi t).isLt
theorem gj_lt (t : Fin cfg0.N) : (gj t).val < 8 := (gj t).isLt
theorem gk_lt (t : Fin cfg0.N) : (gk t).val < 16 := (gk t).isLt

/-- The x block. -/
theorem blk0_apply (c : Dev nD) (t : Fin cfg0.N) (p : Fin 2048) (q : Fin 256) :
    iblk m c 0 t (ix2 p q)
      = V m c main_v0 (ix2 (⟨(gi t).val * 2048 + p.val, by have := gi_lt t; have := p.isLt; omega⟩ : Fin 4096)
          (⟨(gk t).val * 256 + q.val, by have := gk_lt t; have := q.isLt; omega⟩ : Fin 4096)) := by
  unfold iblk
  show V m c main_v0 (((cfg0.win 0).blk t).view.emb (ix2 p q)) = _
  refine congrArg _ (funext fun a => Fin.ext ?_)
  match a with
  | ⟨0, _⟩ => show win0_0.index t 0 * 2048 + 1 * p.val = (gi t).val * 2048 + p.val; rw [(index_0 t).1]; omega
  | ⟨1, _⟩ => show win0_0.index t 1 * 256 + 1 * q.val = (gk t).val * 256 + q.val; rw [(index_0 t).2]; omega

/-- The weight block, at a row inside the array. -/
theorem blk1_apply (c : Dev nD) (t : Fin cfg0.N) (d : S1408x256.Idx → Elt F .i32) (cc : Fin 1408) (q : Fin 256)
    (h : (gj t).val * 1408 + cc.val < 11008) :
    win0_1.fill (grid0.coords t) d (iblk m c 1 t) (ix2 cc q)
      = V m c main_arg1 (ix2 (⟨(gj t).val * 1408 + cc.val, h⟩ : Fin 11008)
          (⟨(gk t).val * 256 + q.val, by have := gk_lt t; have := q.isLt; omega⟩ : Fin 4096)) := by
  rw [Window.fill_apply_of_lt win0_1 (grid0.coords t) d _ (ix2 cc q) (fun a => by
    match a with
    | ⟨0, _⟩ => show cc.val < win0_1.xsize (grid0.coords t) 0; rw [(xsize_1 t).1]; have := cc.isLt; omega
    | ⟨1, _⟩ => show q.val < win0_1.xsize (grid0.coords t) 1; rw [(xsize_1 t).2]; exact q.isLt)]
  unfold iblk
  show V m c main_arg1 (((cfg0.win 1).blk t).view.emb _) = _
  refine congrArg _ (funext fun a => Fin.ext ?_)
  match a with
  | ⟨0, _⟩ => show win0_1.index t 0 * 1408 + 1 * cc.val = (gj t).val * 1408 + cc.val; rw [(index_1 t).1]; omega
  | ⟨1, _⟩ => show win0_1.index t 1 * 256 + 1 * q.val = (gk t).val * 256 + q.val; rw [(index_1 t).2]; omega

/-- The scale block, at an entry inside the array. -/
theorem blk2_apply (c : Dev nD) (t : Fin cfg0.N) (d : S1408x1.Idx → Elt F .f32) (cc : Fin 1408)
    (h : (gj t).val * 1408 + cc.val < 11008) :
    win0_2.fill (grid0.coords t) d (iblk m c 2 t) (ix2 cc (0 : Fin 1))
      = V m c main_v1 (ix2 (⟨(gj t).val * 1408 + cc.val, h⟩ : Fin 11008) (0 : Fin 1)) := by
  rw [Window.fill_apply_of_lt win0_2 (grid0.coords t) d _ (ix2 cc (0 : Fin 1)) (fun a => by
    match a with
    | ⟨0, _⟩ => show cc.val < win0_2.xsize (grid0.coords t) 0; rw [(xsize_2 t).1]; have := cc.isLt; omega
    | ⟨1, _⟩ => show (0 : ℕ) < win0_2.xsize (grid0.coords t) 1; rw [(xsize_2 t).2]; exact Nat.one_pos)]
  unfold iblk
  show V m c main_v1 (((cfg0.win 2).blk t).view.emb _) = _
  refine congrArg _ (funext fun a => Fin.ext ?_)
  match a with
  | ⟨0, _⟩ => show win0_2.index t 0 * 1408 + 1 * cc.val = (gj t).val * 1408 + cc.val; rw [(index_2 t).1]; omega
  | ⟨1, _⟩ => show win0_2.index t 1 * 1 + 1 * 0 = 0; rw [(index_2 t).2]

/-- The zero-point block, at an entry inside the array. -/
theorem blk3_apply (c : Dev nD) (t : Fin cfg0.N) (d : S1408x1.Idx → Elt F .f32) (cc : Fin 1408)
    (h : (gj t).val * 1408 + cc.val < 11008) :
    win0_3.fill (grid0.coords t) d (iblk m c 3 t) (ix2 cc (0 : Fin 1))
      = V m c main_v2 (ix2 (⟨(gj t).val * 1408 + cc.val, h⟩ : Fin 11008) (0 : Fin 1)) := by
  rw [Window.fill_apply_of_lt win0_3 (grid0.coords t) d _ (ix2 cc (0 : Fin 1)) (fun a => by
    match a with
    | ⟨0, _⟩ => show cc.val < win0_3.xsize (grid0.coords t) 0; rw [(xsize_3 t).1]; have := cc.isLt; omega
    | ⟨1, _⟩ => show (0 : ℕ) < win0_3.xsize (grid0.coords t) 1; rw [(xsize_3 t).2]; exact Nat.one_pos)]
  unfold iblk
  show V m c main_v2 (((cfg0.win 3).blk t).view.emb _) = _
  refine congrArg _ (funext fun a => Fin.ext ?_)
  match a with
  | ⟨0, _⟩ => show win0_3.index t 0 * 1408 + 1 * cc.val = (gj t).val * 1408 + cc.val; rw [(index_3 t).1]; omega
  | ⟨1, _⟩ => show win0_3.index t 1 * 1 + 1 * 0 = 0; rw [(index_3 t).2]

/-- The bias block, at an entry inside the array. -/
theorem blk4_apply (c : Dev nD) (t : Fin cfg0.N) (d : S1x1408.Idx → Elt F .f32) (cc : Fin 1408)
    (h : (gj t).val * 1408 + cc.val < 11008) :
    win0_4.fill (grid0.coords t) d (iblk m c 4 t) (ix2 (0 : Fin 1) cc)
      = V m c main_v3 (ix2 (0 : Fin 1) (⟨(gj t).val * 1408 + cc.val, h⟩ : Fin 11008)) := by
  rw [Window.fill_apply_of_lt win0_4 (grid0.coords t) d _ (ix2 (0 : Fin 1) cc) (fun a => by
    match a with
    | ⟨0, _⟩ => show (0 : ℕ) < win0_4.xsize (grid0.coords t) 0; rw [(xsize_4 t).1]; exact Nat.one_pos
    | ⟨1, _⟩ => show cc.val < win0_4.xsize (grid0.coords t) 1; rw [(xsize_4 t).2]; have := cc.isLt; omega)]
  unfold iblk
  show V m c main_v3 (((cfg0.win 4).blk t).view.emb _) = _
  refine congrArg _ (funext fun a => Fin.ext ?_)
  match a with
  | ⟨0, _⟩ => show win0_4.index t 0 * 1 + 1 * 0 = 0; rw [(index_4 t).1]
  | ⟨1, _⟩ => show win0_4.index t 1 * 1408 + 1 * cc.val = (gj t).val * 1408 + cc.val; rw [(index_4 t).2]; omega

end Cert.KernelIdeal.Body

end
-- ==== Proof.Spec.lean ====
/-
  The arithmetic of a dot product of two rows of length 4096 taken sixteen blocks of 256 terms at a time.

  `pdot X W n` is the sum of the first `n` products `X k * W k` on the extended reals. It starts at 0, one block of 256
  terms takes it from `n` to `n + 256`, and at `n = 4096` it is the whole dot product. Only the commutative-monoid
  structure of the extended reals' addition is used: no finiteness of the terms is needed.
-/
import Idealize.ShloMosaic.PureOps.Ideal.Laws
import Idealize.ShloMosaic.Lib.ValueIdx

noncomputable section

open scoped BigOperators

namespace Cert.QLinear

/-- The sum of the first `n` products of two rows of length 4096. -/
def pdot (X W : Fin 4096 → EReal) (n : Nat) : EReal :=
  ∑ kk ∈ Finset.range n, if h : kk < 4096 then X ⟨kk, h⟩ * W ⟨kk, h⟩ else 0

theorem pdot_zero (X W : Fin 4096 → EReal) : pdot X W 0 = 0 := by
  unfold pdot; rw [Finset.range_zero, Finset.sum_empty]

/-- One block of 256 terms. -/
theorem pdot_add (X W : Fin 4096 → EReal) (n : Nat) (hn : n + 256 ≤ 4096) :
    pdot X W (n + 256) = pdot X W n + ∑ q : Fin 256, X ⟨n + q.val, by omega⟩ * W ⟨n + q.val, by omega⟩ := by
  unfold pdot
  rw [Finset.sum_range_add]
  congr 1
  rw [Finset.sum_range]
  exact Finset.sum_congr rfl fun q _ => by rw [dif_pos (show n + q.val < 4096 by omega)]

/-- All sixteen blocks: the whole dot product. -/
theorem pdot_full (X W : Fin 4096 → EReal) : pdot X W 4096 = ∑ kk : Fin 4096, X kk * W kk := by
  unfold pdot
  rw [Finset.sum_range]
  exact Finset.sum_congr rfl fun kk _ => by rw [dif_pos kk.isLt]

open Idealize.ShloMosaic Idealize.ShloMosaic.ValueIdx

/-- The quantised linear layer as one function of its five arguments: entry (r, o) of the result is the dot product of
    row r of x with row o of the weights dequantised — each weight read as a signed integer, less that row's zero point,
    times that row's scale — plus bias o. -/
def G (x : (⟨2, ![4096, 4096]⟩ : Shape).Idx → EReal) (wq : (⟨2, ![11008, 4096]⟩ : Shape).Idx → BitVec 32)
    (scale zero bias : (⟨1, ![11008]⟩ : Shape).Idx → EReal) : (⟨2, ![4096, 11008]⟩ : Shape).Idx → EReal := fun i =>
  (∑ kk : Fin 4096, x (ix2 (i 0) kk) * (((((wq (ix2 (i 1) kk)).toInt : ℝ) : EReal) - zero (ix1 (i 1))) * scale (ix1 (i 1))))
    + bias (ix1 (i 1))

end Cert.QLinear

end
-- ==== Proof.IdealData.lean ====
/-
  What the staging buffers hold after the body at every grid point, on the extended reals.

  The five input buffers are left as found. The output block is accumulated over k: after the point (i, j, k) its entry
  (p, c), for a column 1408·j + c inside the result, is the sum of the first 256·(k + 1) products of row 2048·i + p of x
  with row 1408·j + c of the dequantised weights, and at k = 15 that sum plus bias 1408·j + c. The columns of a block past
  the result's end are never written back, and nothing is said of them.
-/
import proofs.«113607_j58660663329081_2_alg».proof.Proof.IdealReads
import proofs.«113607_j58660663329081_2_alg».proof.Proof.Spec

set_option maxRecDepth 16384

noncomputable section

namespace Cert.KernelIdeal.Body

open Cert.KernelIdeal Cert.KernelIdeal.Gen Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window)

variable (m : (ℓ : Loc nD τ sig) → Buf (Elt Ideal) ℓ)

/-- Row r of x as the region finds it. -/
def xrow (c : Dev nD) (r : Fin 4096) : Fin 4096 → EReal := fun kk => V m c main_v0 (ix2 r kk)
/-- Row o of the weights, dequantised: read signed, less the row's zero point, times the row's scale. -/
def wrow (c : Dev nD) (o : Fin 11008) : Fin 4096 → EReal := fun kk =>
  ((((V m c main_arg1 (ix2 o kk)).toInt : ℝ) : EReal) - V m c main_v2 (ix2 o (0 : Fin 1))) * V m c main_v1 (ix2 o (0 : Fin 1))
/-- Entry o of the bias row. -/
def biasAt (c : Dev nD) (o : Fin 11008) : EReal := V m c main_v3 (ix2 (0 : Fin 1) o)

/-- The output block after the point (i, j, k). -/
def acc (c : Dev nD) (i : Fin 2) (j : Fin 8) (k : Fin 16) : S2048x1408.Idx → EReal := fun y =>
  if h : j.val * 1408 + (y 1).val < 11008 then
    if k.val = 15 then
      QLinear.pdot (xrow m c ⟨i.val * 2048 + (y 0).val, by have := idx2_lt0 y; have := i.isLt; omega⟩) (wrow m c ⟨j.val * 1408 + (y 1).val, h⟩) ((k.val + 1) * 256)
        + biasAt m c ⟨j.val * 1408 + (y 1).val, h⟩
    else
      QLinear.pdot (xrow m c ⟨i.val * 2048 + (y 0).val, by have := idx2_lt0 y; have := i.isLt; omega⟩) (wrow m c ⟨j.val * 1408 + (y 1).val, h⟩) ((k.val + 1) * 256)
  else 0

/-- The proof data of the pipeline on core c: the arrays as the region finds them; after the body each input buffer at its
    block (filled out past the array's end with a value nothing reads) and the output's at the accumulated block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => acc m c (gi t) (gj t) (gk t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => Classical.arbitrary _) (iblk m c 1 t) := by dsimp only [dats]
theorem after_2 (c : Dev nD) (t : Fin cfg0.N) :
    (dats m 0 c).after 2 t = win0_2.fill (grid0.coords t) (fun _ => Classical.arbitrary _) (iblk m c 2 t) := by dsimp only [dats]
theorem after_3 (c : Dev nD) (t : Fin cfg0.N) :
    (dats m 0 c).after 3 t = win0_3.fill (grid0.coords t) (fun _ => Classical.arbitrary _) (iblk m c 3 t) := by dsimp only [dats]
theorem after_4 (c : Dev nD) (t : Fin cfg0.N) :
    (dats m 0 c).after 4 t = win0_4.fill (grid0.coords t) (fun _ => Classical.arbitrary _) (iblk m c 4 t) := by dsimp only [dats]
theorem after_5 (c : Dev nD) (t : Fin cfg0.N) : (dats m 0 c).after 5 t = acc m c (gi t) (gj t) (gk t) := by dsimp only [dats]

/-- The x buffer holds its block at every point. -/
theorem before_0 (c : Dev nD) (t : Fin cfg0.N) (d) : (dats m 0 c).before 0 t d = iblk m c 0 t :=
  before0_0_of m (dats m 0 c) (A_eq m c 0) (after_0 m c) t d

/-- A clipped input buffer holds, at every point, its block where the transfer lands and anything past it: the block index
    moves only when the buffer is fetched again, and the cut depends on the block index alone. -/
theorem before_1 (c : Dev nD) (t : Fin cfg0.N) (d) :
    (dats m 0 c).before 1 t d = win0_1.fill (grid0.coords t) d (iblk m c 1 t) :=
  ((dats m 0 c).before_in_eq_fetched 1 rfl (fun _ => rfl)
    (fun t t' h => funext fun a => congrArg (fun n => Pipeline.Clip.of n (win0_1.size a) (win0_1.shape.size a)) (congrFun h a))
    (fun t => by rw [after_1, Window.cut_fill]; unfold Dat.blockOf iblk; rw [A_eq]) t d).trans
    (by unfold Dat.fetched Dat.blockOf iblk; rw [A_eq])
theorem before_2 (c : Dev nD) (t : Fin cfg0.N) (d) :
    (dats m 0 c).before 2 t d = win0_2.fill (grid0.coords t) d (iblk m c 2 t) :=
  ((dats m 0 c).before_in_eq_fetched 2 rfl (fun _ => rfl)
    (fun t t' h => funext fun a => congrArg (fun n => Pipeline.Clip.of n (win0_2.size a) (win0_2.shape.size a)) (congrFun h a))
    (fun t => by rw [after_2, Window.cut_fill]; unfold Dat.blockOf iblk; rw [A_eq]) t d).trans
    (by unfold Dat.fetched Dat.blockOf iblk; rw [A_eq])
theorem before_3 (c : Dev nD) (t : Fin cfg0.N) (d) :
    (dats m 0 c).before 3 t d = win0_3.fill (grid0.coords t) d (iblk m c 3 t) :=
  ((dats m 0 c).before_in_eq_fetched 3 rfl (fun _ => rfl)
    (fun t t' h => funext fun a => congrArg (fun n => Pipeline.Clip.of n (win0_3.size a) (win0_3.shape.size a)) (congrFun h a))
    (fun t => by rw [after_3, Window.cut_fill]; unfold Dat.blockOf iblk; rw [A_eq]) t d).trans
    (by unfold Dat.fetched Dat.blockOf iblk; rw [A_eq])
theorem before_4 (c : Dev nD) (t : Fin cfg0.N) (d) :
    (dats m 0 c).before 4 t d = win0_4.fill (grid0.coords t) d (iblk m c 4 t) :=
  ((dats m 0 c).before_in_eq_fetched 4 rfl (fun _ => rfl)
    (fun t t' h => funext fun a => congrArg (fun n => Pipeline.Clip.of n (win0_4.size a) (win0_4.shape.size a)) (congrFun h a))
    (fun t => by rw [after_4, Window.cut_fill]; unfold Dat.blockOf iblk; rw [A_eq]) t d).trans
    (by unfold Dat.fetched Dat.blockOf iblk; rw [A_eq])

/-- At k = 0 the output buffer is fresh: the first point, or the point after a write-back. -/
theorem before_5_first (c : Dev nD) (t : Fin cfg0.N) (h0 : t.val % 16 = 0) (d) : (dats m 0 c).before 5 t d = d := by
  refine Dat.before_out_reset _ 5 rfl t ?_ d
  by_cases ht : t.val = 0
  · exact .inl ht
  · exact .inr ⟨ht, (flush0_5 _).mpr (by show (t.val - 1) % 16 = 15; omega)⟩

/-- At k ≠ 0 it holds what the body left at the point before, on the part that is written back, and anything past it. -/
theorem before_5_acc (c : Dev nD) (t : Fin cfg0.N) (h0 : t.val % 16 ≠ 0) (d) :
    (dats m 0 c).before 5 t d
      = win0_5.fill (grid0.coords ⟨t.val - 1, Nat.lt_of_le_of_lt (Nat.sub_le _ _) t.isLt⟩) d
          (win0_5.cut (grid0.coords ⟨t.val - 1, Nat.lt_of_le_of_lt (Nat.sub_le _ _) t.isLt⟩)
            (acc m c (gi ⟨t.val - 1, Nat.lt_of_le_of_lt (Nat.sub_le _ _) t.isLt⟩) (gj ⟨t.val - 1, Nat.lt_of_le_of_lt (Nat.sub_le _ _) t.isLt⟩)
              (gk ⟨t.val - 1, Nat.lt_of_le_of_lt (Nat.sub_le _ _) t.isLt⟩))) := by
  rw [Dat.before_out_acc _ 5 rfl t (by omega) (Bool.eq_false_iff.mpr fun h => by have := (flush0_5 _).mp h; dsimp only at this; omega) (fun _ => rfl)]
  unfold Dat.kept
  rw [after_5]

end Cert.KernelIdeal.Body

end
-- ==== Proof.IdealPayload.lean ====
/-
  The body's three store values read at one element, on the extended reals.

  The zero block is 0 everywhere. The product step at (p, c) is what the block held there plus the sum over the 256
  columns q of x(p, q) · ((w(c, q) read signed − zero(c)) · scale(c)): the weight block's row c dequantised by that
  row's zero point and scale, contracted with the x block's row p (a change of float format is the identity here). The
  bias step at (p, c) adds bias(c).
-/
import proofs.«113607_j58660663329081_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.ValueIdx

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem lhs_row (i : S2048x1408.Idx) (q : dot_S2048x256_S1408x256_S2048x1408_1_1_0_0_n_n.contr.Idx) :
    (dot_S2048x256_S1408x256_S2048x1408_1_1_0_0_n_n.lhsIdx i q 0).val = (i 0).val := by
  unfold DotDims.lhsIdx
  rw [dif_neg (show ¬(0 : Fin S2048x256.rank) ∈ dot_S2048x256_S1408x256_S2048x1408_1_1_0_0_n_n.lhsBatch by decide), dif_pos (show (0 : Fin S2048x256.rank) ∈ dot_S2048x256_S1408x256_S2048x1408_1_1_0_0_n_n.lhsNonContracting by decide)]
  rfl
theorem lhs_col (i : S2048x1408.Idx) (q : dot_S2048x256_S1408x256_S2048x1408_1_1_0_0_n_n.contr.Idx) :
    (dot_S2048x256_S1408x256_S2048x1408_1_1_0_0_n_n.lhsIdx i q 1).val = (q ⟨0, by decide⟩).val :=
  dot_S2048x256_S1408x256_S2048x1408_1_1_0_0_n_n.lhsIdx_val_of_single rfl i q
theorem rhs_row (i : S2048x1408.Idx) (q : dot_S2048x256_S1408x256_S2048x1408_1_1_0_0_n_n.contr.Idx) :
    (dot_S2048x256_S1408x256_S2048x1408_1_1_0_0_n_n.rhsIdx i q 0).val = (i 1).val := by
  unfold DotDims.rhsIdx
  rw [dif_neg (show ¬(0 : Fin S1408x256.rank) ∈ dot_S2048x256_S1408x256_S2048x1408_1_1_0_0_n_n.rhsBatch by decide), dif_pos (show (0 : Fin S1408x256.rank) ∈ dot_S2048x256_S1408x256_S2048x1408_1_1_0_0_n_n.rhsNonContracting by decide)]
  rfl
theorem rhs_col (i : S2048x1408.Idx) (q : dot_S2048x256_S1408x256_S2048x1408_1_1_0_0_n_n.contr.Idx) :
    (dot_S2048x256_S1408x256_S2048x1408_1_1_0_0_n_n.rhsIdx i q 1).val = (q ⟨0, by decide⟩).val :=
  dot_S2048x256_S1408x256_S2048x1408_1_1_0_0_n_n.rhsIdx_val_of_single rfl i q

/-- The block product into a zero accumulator at (p, c): row p of the left block against row c of the right block. -/
theorem matmul_block_apply (l : FVec Ideal S2048x256 .bf16) (r : FVec Ideal S1408x256 .bf16) (p : Fin 2048) (c : Fin 1408) :
    matmul dot_S2048x256_S1408x256_S2048x1408_1_1_0_0_n_n none l r (constant S2048x1408 .f32 0x00000000#32) (ix2 p c)
      = ∑ q : Fin 256, l (ix2 p q) * r (ix2 c q) := by
  simp only [matmul]
  rw [Ideal.matmul_constant_zero_apply, ← Equiv.sum_comp (ValueIdx.contrEquiv1 dot_S2048x256_S1408x256_S2048x1408_1_1_0_0_n_n 256 rfl rfl).symm]
  refine Finset.sum_congr rfl fun k _ => ?_
  have hk := ValueIdx.contrEquiv1_symm_val dot_S2048x256_S1408x256_S2048x1408_1_1_0_0_n_n 256 rfl rfl k
  have el : dot_S2048x256_S1408x256_S2048x1408_1_1_0_0_n_n.lhsIdx (ix2 p c) ((ValueIdx.contrEquiv1 dot_S2048x256_S1408x256_S2048x1408_1_1_0_0_n_n 256 rfl rfl).symm k) = ix2 p k := funext fun a => Fin.ext (by
    match a with
    | ⟨0, _⟩ => exact lhs_row _ _
    | ⟨1, _⟩ => exact (lhs_col _ _).trans hk)
  have er : dot_S2048x256_S1408x256_S2048x1408_1_1_0_0_n_n.rhsIdx (ix2 p c) ((ValueIdx.contrEquiv1 dot_S2048x256_S1408x256_S2048x1408_1_1_0_0_n_n 256 rfl rfl).symm k) = ix2 c k := funext fun a => Fin.ext (by
    match a with
    | ⟨0, _⟩ => exact rhs_row _ _
    | ⟨1, _⟩ => exact (rhs_col _ _).trans hk)
  rw [el, er]

/-- The zero block. -/
theorem pay1_apply (j : S2048x1408.Idx) : k0_pay1 (F := Ideal) j = 0 := by
  unfold k0_pay1
  show Ideal.ofBits .f32 0x00000000#32 = 0
  exact Ideal.ofBits_zero_f32

/-- The product step at (p, c). -/
theorem pay2_apply (x0 : Vec Ideal S2048x256 .bf16) (x1 : Vec Ideal S1408x256 .i32) (xz xs : Vec Ideal S1408x1 .f32)
    (xo : Vec Ideal S2048x1408 .f32) (p : Fin 2048) (c : Fin 1408) :
    k0_pay2 x0 x1 xz xs xo (ix2 p c)
      = xo (ix2 p c) + ∑ q : Fin 256, x0 (ix2 p q) * (((((x1 (ix2 c q)).toInt : ℝ) : EReal) - xz (ix2 c (0 : Fin 1))) * xs (ix2 c (0 : Fin 1))) := by
  unfold k0_pay2
  simp only [shapeCast_self]
  rw [addf_apply, matmul_block_apply]
  refine congrArg (xo (ix2 p c) + ·) (Finset.sum_congr rfl fun q _ => ?_)
  rw [truncf_apply, mulf_apply, subf_apply, sitofp_apply, broadcastTo_a1_ab_apply, broadcastTo_a1_ab_apply]
  rfl

/-- The bias step at (p, c). -/
theorem pay3_apply (v : Vec Ideal S2048x1408 .f32) (xb : Vec Ideal S1x1408 .f32) (p : Fin 2048) (c : Fin 1408) :
    k0_pay3 v xb (ix2 p c) = v (ix2 p c) + xb (ix2 (0 : Fin 1) c) := by
  unfold k0_pay3
  simp only [shapeCast_self]
  rw [addf_apply, broadcastTo_1b_ab_apply]

end Cert.KernelIdeal.Body

end
-- ==== Proof.IdealStep.lean ====
/-
  One step of the accumulation at one entry of the output block.

  At the point (i, j, k) and an entry (p, c) whose column 1408·j + c lies inside the result, the product step adds to the
  entry the 256 products of block k: x(2048·i + p, 256·k + q) times the dequantised weight (1408·j + c, 256·k + q). Starting
  from 0 at k = 0 this gives the partial dot product of 256·(k + 1) terms, and the bias step at k = 15 adds the bias
  entry. Every operand is read where its transfer lands, so the words past the arrays' ends do not enter.
-/
import proofs.«113607_j58660663329081_2_alg».proof.Proof.IdealData
import proofs.«113607_j58660663329081_2_alg».proof.Proof.IdealPayload

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The accumulated block at an entry inside the result. -/
theorem acc_apply (i : Fin 2) (j : Fin 8) (k : Fin 16) (p : Fin 2048) (cc : Fin 1408) (h : j.val * 1408 + cc.val < 11008) :
    acc m c i j k (ix2 p cc)
      = if k.val = 15 then
          QLinear.pdot (xrow m c ⟨i.val * 2048 + p.val, by have := i.isLt; have := p.isLt; omega⟩) (wrow m c ⟨j.val * 1408 + cc.val, h⟩) ((k.val + 1) * 256)
            + biasAt m c ⟨j.val * 1408 + cc.val, h⟩
        else
          QLinear.pdot (xrow m c ⟨i.val * 2048 + p.val, by have := i.isLt; have := p.isLt; omega⟩) (wrow m c ⟨j.val * 1408 + cc.val, h⟩) ((k.val + 1) * 256) := by
  unfold acc
  exact dif_pos h

/-- One product of block k, read off the staging buffers. -/
theorem prod_term (t : Fin cfg0.N) (X0 : S2048x256.Idx → EReal) (hX0 : X0 = iblk m c 0 t)
    (d1 : S1408x256.Idx → BitVec 32) (d2 d3 : S1408x1.Idx → EReal)
    (p : Fin 2048) (cc : Fin 1408) (q : Fin 256) (h : (gj t).val * 1408 + cc.val < 11008) :
    X0 (ix2 p q)
        * (((((win0_1.fill (grid0.coords t) d1 (iblk m c 1 t) (ix2 cc q)).toInt : ℝ) : EReal)
              - win0_3.fill (grid0.coords t) d3 (iblk m c 3 t) (ix2 cc (0 : Fin 1)))
            * win0_2.fill (grid0.coords t) d2 (iblk m c 2 t) (ix2 cc (0 : Fin 1)))
      = xrow m c ⟨(gi t).val * 2048 + p.val, by have := gi_lt t; have := p.isLt; omega⟩ ⟨(gk t).val * 256 + q.val, by have := gk_lt t; have := q.isLt; omega⟩
        * wrow m c ⟨(gj t).val * 1408 + cc.val, h⟩ ⟨(gk t).val * 256 + q.val, by have := gk_lt t; have := q.isLt; omega⟩ := by
  rw [hX0, blk0_apply, blk1_apply m c t d1 cc q h, blk3_apply m c t d3 cc h, blk2_apply m c t d2 cc h]
  rfl

/-- Block k's 256 products take the partial dot product from 256·k to 256·(k + 1) terms. -/
theorem pdot_block (t : Fin cfg0.N) (X0 : S2048x256.Idx → EReal) (hX0 : X0 = iblk m c 0 t)
    (d1 : S1408x256.Idx → BitVec 32) (d2 d3 : S1408x1.Idx → EReal)
    (p : Fin 2048) (cc : Fin 1408) (h : (gj t).val * 1408 + cc.val < 11008) :
    QLinear.pdot (xrow m c ⟨(gi t).val * 2048 + p.val, by have := gi_lt t; have := p.isLt; omega⟩) (wrow m c ⟨(gj t).val * 1408 + cc.val, h⟩) (((gk t).val + 1) * 256)
      = QLinear.pdot (xrow m c ⟨(gi t).val * 2048 + p.val, by have := gi_lt t; have := p.isLt; omega⟩) (wrow m c ⟨(gj t).val * 1408 + cc.val, h⟩) ((gk t).val * 256)
        + ∑ q : Fin 256, X0 (ix2 p q)
            * (((((win0_1.fill (grid0.coords t) d1 (iblk m c 1 t) (ix2 cc q)).toInt : ℝ) : EReal)
                  - win0_3.fill (grid0.coords t) d3 (iblk m c 3 t) (ix2 cc (0 : Fin 1)))
                * win0_2.fill (grid0.coords t) d2 (iblk m c 2 t) (ix2 cc (0 : Fin 1))) := by
  rw [show ((gk t).val + 1) * 256 = (gk t).val * 256 + 256 by omega,
    QLinear.pdot_add _ _ ((gk t).val * 256) (by have := gk_lt t; omega)]
  refine congrArg (QLinear.pdot _ _ _ + ·) (Finset.sum_congr rfl fun q _ => ?_)
  exact (prod_term m c t X0 hX0 d1 d2 d3 p cc q h).symm

/-- What the output buffer holds when the body runs at a point with k ≠ 0, at an entry inside the result: what the point
    before accumulated. -/
theorem prev_apply (t : Fin cfg0.N) (h0 : t.val % 16 ≠ 0) (d5 : S2048x1408.Idx → EReal) (p : Fin 2048) (cc : Fin 1408)
    (h : (gj t).val * 1408 + cc.val < 11008) :
    (dats m 0 c).before 5 t d5 (ix2 p cc)
      = acc m c (gi t) (gj t) (gk ⟨t.val - 1, Nat.lt_of_le_of_lt (Nat.sub_le _ _) t.isLt⟩) (ix2 p cc) := by
  obtain ⟨e1, e2, e3⟩ := coords_pred t h0
  have hj : ∀ a, ((ix2 p cc) a).val < win0_5.xsize (grid0.coords ⟨t.val - 1, Nat.lt_of_le_of_lt (Nat.sub_le _ _) t.isLt⟩) a := fun a => by
    match a with
    | ⟨0, _⟩ => show p.val < win0_5.xsize (grid0.coords _) 0; rw [(xsize_5 _).1]; exact p.isLt
    | ⟨1, _⟩ => show cc.val < win0_5.xsize (grid0.coords _) 1; rw [(xsize_5 _).2, e2]; have := cc.isLt; omega
  rw [before_5_acc m c t h0 d5, Window.fill_apply_of_lt win0_5 _ d5 _ (ix2 p cc) hj]
  show acc m c _ _ _ (win0_5.xinj _ _) = _
  rw [e1, e2]
  exact congrArg _ (funext fun a => Fin.ext (by match a with | ⟨0, _⟩ => rfl | ⟨1, _⟩ => rfl))

/-- k = 0. -/
theorem step_first (t : Fin cfg0.N) (h0 : t.val % 16 = 0) (X0 : S2048x256.Idx → EReal) (hX0 : X0 = iblk m c 0 t) (d1 : S1408x256.Idx → BitVec 32) (d2 d3 : S1408x1.Idx → EReal)
    (p : Fin 2048) (cc : Fin 1408) (h : (gj t).val * 1408 + cc.val < 11008) :
    k0_pay2 X0 (win0_1.fill (grid0.coords t) d1 (iblk m c 1 t)) (win0_3.fill (grid0.coords t) d3 (iblk m c 3 t))
        (win0_2.fill (grid0.coords t) d2 (iblk m c 2 t)) (k0_pay1 (F := Ideal)) (ix2 p cc)
      = acc m c (gi t) (gj t) (gk t) (ix2 p cc) := by
  have hk : (gk t).val = 0 := by rw [gk_val]; exact h0
  have hz : QLinear.pdot (xrow m c ⟨(gi t).val * 2048 + p.val, by have := gi_lt t; have := p.isLt; omega⟩) (wrow m c ⟨(gj t).val * 1408 + cc.val, h⟩) ((gk t).val * 256) = 0 := by
    rw [show (gk t).val * 256 = 0 by omega]; exact QLinear.pdot_zero _ _
  rw [pay2_apply, pay1_apply, acc_apply m c (gi t) (gj t) (gk t) p cc h, if_neg (by omega),
    pdot_block m c t X0 hX0 d1 d2 d3 p cc h, hz]

/-- 0 < k < 15. -/
theorem step_middle (t : Fin cfg0.N) (h0 : t.val % 16 ≠ 0) (h15 : t.val % 16 ≠ 15) (X0 : S2048x256.Idx → EReal) (hX0 : X0 = iblk m c 0 t) (d1 : S1408x256.Idx → BitVec 32)
    (d2 d3 : S1408x1.Idx → EReal) (d5 : S2048x1408.Idx → EReal)
    (p : Fin 2048) (cc : Fin 1408) (h : (gj t).val * 1408 + cc.val < 11008) :
    k0_pay2 X0 (win0_1.fill (grid0.coords t) d1 (iblk m c 1 t)) (win0_3.fill (grid0.coords t) d3 (iblk m c 3 t))
        (win0_2.fill (grid0.coords t) d2 (iblk m c 2 t)) ((dats m 0 c).before 5 t d5) (ix2 p cc)
      = acc m c (gi t) (gj t) (gk t) (ix2 p cc) := by
  obtain ⟨-, -, e3⟩ := coords_pred t h0
  have hk : (gk t).val = t.val % 16 := gk_val t
  rw [pay2_apply, prev_apply m c t h0 d5 p cc h, acc_apply m c (gi t) (gj t) _ p cc h, if_neg (by omega),
    acc_apply m c (gi t) (gj t) (gk t) p cc h, if_neg (by omega), pdot_block m c t X0 hX0 d1 d2 d3 p cc h, e3]

/-- k = 15. -/
theorem step_last (t : Fin cfg0.N) (h15 : t.val % 16 = 15) (X0 : S2048x256.Idx → EReal) (hX0 : X0 = iblk m c 0 t) (d1 : S1408x256.Idx → BitVec 32)
    (d2 d3 : S1408x1.Idx → EReal) (d4 : S1x1408.Idx → EReal) (d5 : S2048x1408.Idx → EReal)
    (p : Fin 2048) (cc : Fin 1408) (h : (gj t).val * 1408 + cc.val < 11008) :
    k0_pay3 (k0_pay2 X0 (win0_1.fill (grid0.coords t) d1 (iblk m c 1 t)) (win0_3.fill (grid0.coords t) d3 (iblk m c 3 t))
        (win0_2.fill (grid0.coords t) d2 (iblk m c 2 t)) ((dats m 0 c).before 5 t d5)) (win0_4.fill (grid0.coords t) d4 (iblk m c 4 t)) (ix2 p cc)
      = acc m c (gi t) (gj t) (gk t) (ix2 p cc) := by
  obtain ⟨-, -, e3⟩ := coords_pred t (by omega)
  have hk : (gk t).val = t.val % 16 := gk_val t
  rw [pay3_apply, pay2_apply, prev_apply m c t (by omega) d5 p cc h, acc_apply m c (gi t) (gj t) _ p cc h, if_neg (by omega),
    acc_apply m c (gi t) (gj t) (gk t) p cc h, if_pos (by omega), pdot_block m c t X0 hX0 d1 d2 d3 p cc h, e3, blk4_apply m c t d4 cc h]
  rfl

end Cert.KernelIdeal.Body

end
-- ==== Proof.IdealRuns.lean ====
/-
  The kernel body run once per control case, over any float instance.

  The body branches twice on the third grid coordinate k: at k = 0 it first zeroes the output block, and at k = 15 it
  adds the bias row after the product step. On the grid the two conditions never hold together, so three cases occur:
  first (k = 0), middle (0 < k < 15) and last (k = 15). Each run states what the output's staging buffer ends with as
  the list of the stores made into it, the five input buffers left as they were found.
-/
import proofs.«113607_j58660663329081_2_alg».proof.Proof.Gen.KernelIdeal.Launch
import proofs.«113607_j58660663329081_2_alg».proof.Proof.Gen.KernelIdeal.Skeleton
import proofs.«113607_j58660663329081_2_alg».proof.Proof.Gen.KernelIdeal.Points
import proofs.«113607_j58660663329081_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, k = 0, as the body computes it from the grid coordinates. -/
abbrev condFirst (i : grid0.Coords) : Prop :=
  (Scalar.cmpi .ne (Scalar.extui (Scalar.cmpi .eq (BitVec.ofNat 32 (i 2).val) 0#32)) 0#32) = 1#1
/-- The second branch's condition, k = 15. -/
abbrev condLast (i : grid0.Coords) : Prop :=
  (Scalar.cmpi .ne (Scalar.extui (Scalar.cmpi .eq (BitVec.ofNat 32 (i 2).val) 15#32)) 0#32) = 1#1

/-- The grid is enumerated with k fastest: k = 0 exactly at the points ≡ 0 (mod 16), -/
theorem hcondFirst : ∀ t : Fin cfg0.N, condFirst (grid0.coords t) ↔ t.val % 16 = 0 :=
  (by decide +kernel : ∀ t : Fin grid0.N, condFirst (grid0.coords t) ↔ t.val % 16 = 0)
/-- and k = 15 exactly at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

set_option maxHeartbeats 1000000 in
/-- k = 0: the output block is zeroed, then the product of the two input blocks is added to it. -/
noncomputable def runFirst (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : condFirst i) (hc1 : ¬condLast i)
    (x0 : Vec F S2048x256 .bf16) (x1 : Vec F S1408x256 .i32) (x2 : Vec F S1408x1 .f32) (x3 : Vec F S1408x1 .f32) (x4 : Vec F S1x1408 .f32) :
    { L : List (View.Piece (Elt F) S2048x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E (cc0__qlinear_kernel i arg3 harg3 arg4 harg4 arg5 harg5 arg6 harg6 arg7 harg7 arg8 harg8) K } := by
  refine ⟨?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

set_option maxHeartbeats 1000000 in
/-- 0 < k < 15: the product of the two input blocks is added to what the output block held. -/
noncomputable def runMiddle (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : ¬condLast i)
    (x0 : Vec F S2048x256 .bf16) (x1 : Vec F S1408x256 .i32) (x2 : Vec F S1408x1 .f32) (x3 : Vec F S1408x1 .f32) (x4 : Vec F S1x1408 .f32)
    (xo : Vec F S2048x1408 .f32) :
    { L : List (View.Piece (Elt F) S2048x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E (cc0__qlinear_kernel i arg3 harg3 arg4 harg4 arg5 harg5 arg6 harg6 arg7 harg7 arg8 harg8) K } := by
  refine ⟨?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

set_option maxHeartbeats 1000000 in
/-- k = 15: the product is added to what the output block held, then the bias row is added to every row. -/
noncomputable def runLast (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : condLast i)
    (x0 : Vec F S2048x256 .bf16) (x1 : Vec F S1408x256 .i32) (x2 : Vec F S1408x1 .f32) (x3 : Vec F S1408x1 .f32) (x4 : Vec F S1x1408 .f32)
    (xo : Vec F S2048x1408 .f32) :
    { L : List (View.Piece (Elt F) S2048x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)) -∗ K ⟨⟩))
          ⊢ wp frame (wpE (defs₀ (F := F)) Variants.none c none) E (cc0__qlinear_kernel i arg3 harg3 arg4 harg4 arg5 harg5 arg6 harg6 arg7 harg7 arg8 harg8) K } := by
  refine ⟨?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Body

end
-- ==== Proof.IdealPieces.lean ====
/-
  What each control case of the body leaves in the output's staging buffer, as a pure function of what the six buffers
  held: the stores of a case all write the whole block, so the last one decides, and a load of the block between two
  stores reads the earlier store's value.
-/
import proofs.«113607_j58660663329081_2_alg».proof.Proof.IdealRuns
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO : View sig .tc .vmem S2048x1408 .f32 := (Memref.whole cc0_stg5_0 : Memref sig .tc .vmem S2048x1408 .f32).view

theorem zeros2 : (![0, 0] : Fin 2 → Nat) = fun _ => 0 := funext fun a => by fin_cases a <;> rfl

/-- The stores of this case cover the block. -/
theorem coverFirst (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : condFirst i) (hc1 : ¬condLast i)
    (x0 : Vec F S2048x256 .bf16) (x1 : Vec F S1408x256 .i32) (x2 : Vec F S1408x1 .f32) (x3 : Vec F S1408x1 .f32) (x4 : Vec F S1x1408 .f32)
    (y : S2048x1408.Idx) :
    ∃ pc ∈ (runFirst c i arg3 harg3 arg4 harg4 arg5 harg5 arg6 harg6 arg7 harg7 arg8 harg8 hc0 hc1 x0 x1 x2 x3 x4).1, y ∈ pc.1.set :=
  View.cover_of_tiledL (runFirst c i arg3 harg3 arg4 harg4 arg5 harg5 arg6 harg6 arg7 harg7 arg8 harg8 hc0 hc1 x0 x1 x2 x3 x4).1 S2048x1408.size (by sl_kernel_rfl) y

/-- What this case leaves in the output's staging buffer: its stores read back. -/
def outFirst (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : condFirst i) (hc1 : ¬condLast i)
    (x0 : Vec F S2048x256 .bf16) (x1 : Vec F S1408x256 .i32) (x2 : Vec F S1408x1 .f32) (x3 : Vec F S1408x1 .f32) (x4 : Vec F S1x1408 .f32) : Vec F S2048x1408 .f32 :=
  VO.read (Elt F) (VO.writes (Elt F) VO.junk (runFirst c i arg3 harg3 arg4 harg4 arg5 harg5 arg6 harg6 arg7 harg7 arg8 harg8 hc0 hc1 x0 x1 x2 x3 x4).1)

/-- At k = 0 the block ends at the product step applied to the zero block. -/
theorem outFirst_eq (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : condFirst i) (hc1 : ¬condLast i)
    (x0 : Vec F S2048x256 .bf16) (x1 : Vec F S1408x256 .i32) (x2 : Vec F S1408x1 .f32) (x3 : Vec F S1408x1 .f32) (x4 : Vec F S1x1408 .f32) :
    outFirst c i arg3 harg3 arg4 harg4 arg5 harg5 arg6 harg6 arg7 harg7 arg8 harg8 hc0 hc1 x0 x1 x2 x3 x4
      = k0_pay2 x0 x1 x3 x2 (k0_pay1 (F := F)) := by
  unfold outFirst
  rw [View.read_writes_eq_canon _ _ _ (coverFirst c i arg3 harg3 arg4 harg4 arg5 harg5 arg6 harg6 arg7 harg7 arg8 harg8 hc0 hc1 x0 x1 x2 x3 x4)]
  unfold runFirst
  dsimp only
  sl_unfold_words
  have hz := zeros2
  rw [View.canon_cons_unit_zero hz, View.readCov_unit_zero _ hz]
  simp only [View.readAt_eq_ld, harg3.read_unread, harg4.read_unread, harg5.read_unread, harg6.read_unread,
    View.ld_unit_zero (S := S2048x256) hz, View.ld_unit_zero (S := S1408x256) hz, View.ld_unit_zero (S := S1408x1) hz]

/-- The stores of this case cover the block. -/
theorem coverMiddle (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : ¬condLast i)
    (x0 : Vec F S2048x256 .bf16) (x1 : Vec F S1408x256 .i32) (x2 : Vec F S1408x1 .f32) (x3 : Vec F S1408x1 .f32) (x4 : Vec F S1x1408 .f32) (xo : Vec F S2048x1408 .f32)
    (y : S2048x1408.Idx) :
    ∃ pc ∈ (runMiddle c i arg3 harg3 arg4 harg4 arg5 harg5 arg6 harg6 arg7 harg7 arg8 harg8 hc0 hc1 x0 x1 x2 x3 x4 xo).1, y ∈ pc.1.set :=
  View.cover_of_tiledL (runMiddle c i arg3 harg3 arg4 harg4 arg5 harg5 arg6 harg6 arg7 harg7 arg8 harg8 hc0 hc1 x0 x1 x2 x3 x4 xo).1 S2048x1408.size (by sl_kernel_rfl) y

/-- What this case leaves in the output's staging buffer: its stores read back. -/
def outMiddle (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : ¬condLast i)
    (x0 : Vec F S2048x256 .bf16) (x1 : Vec F S1408x256 .i32) (x2 : Vec F S1408x1 .f32) (x3 : Vec F S1408x1 .f32) (x4 : Vec F S1x1408 .f32) (xo : Vec F S2048x1408 .f32) : Vec F S2048x1408 .f32 :=
  VO.read (Elt F) (VO.writes (Elt F) VO.junk (runMiddle c i arg3 harg3 arg4 harg4 arg5 harg5 arg6 harg6 arg7 harg7 arg8 harg8 hc0 hc1 x0 x1 x2 x3 x4 xo).1)

/-- At 0 < k < 15 the block ends at the product step applied to what it held. -/
theorem outMiddle_eq (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : ¬condLast i)
    (x0 : Vec F S2048x256 .bf16) (x1 : Vec F S1408x256 .i32) (x2 : Vec F S1408x1 .f32) (x3 : Vec F S1408x1 .f32) (x4 : Vec F S1x1408 .f32) (xo : Vec F S2048x1408 .f32) :
    outMiddle c i arg3 harg3 arg4 harg4 arg5 harg5 arg6 harg6 arg7 harg7 arg8 harg8 hc0 hc1 x0 x1 x2 x3 x4 xo
      = k0_pay2 x0 x1 x3 x2 xo := by
  unfold outMiddle
  rw [View.read_writes_eq_canon _ _ _ (coverMiddle c i arg3 harg3 arg4 harg4 arg5 harg5 arg6 harg6 arg7 harg7 arg8 harg8 hc0 hc1 x0 x1 x2 x3 x4 xo)]
  unfold runMiddle
  dsimp only
  sl_unfold_words
  have hz := zeros2
  rw [View.canon_unit_zero hz]
  simp only [View.readAt_eq_ld, harg3.read_unread, harg4.read_unread, harg5.read_unread, harg6.read_unread, harg8.read_unread,
    View.ld_unit_zero (S := S2048x256) hz, View.ld_unit_zero (S := S1408x256) hz, View.ld_unit_zero (S := S1408x1) hz,
    View.ld_unit_zero (S := S2048x1408) hz]

/-- The stores of this case cover the block. -/
theorem coverLast (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : condLast i)
    (x0 : Vec F S2048x256 .bf16) (x1 : Vec F S1408x256 .i32) (x2 : Vec F S1408x1 .f32) (x3 : Vec F S1408x1 .f32) (x4 : Vec F S1x1408 .f32) (xo : Vec F S2048x1408 .f32)
    (y : S2048x1408.Idx) :
    ∃ pc ∈ (runLast c i arg3 harg3 arg4 harg4 arg5 harg5 arg6 harg6 arg7 harg7 arg8 harg8 hc0 hc1 x0 x1 x2 x3 x4 xo).1, y ∈ pc.1.set :=
  View.cover_of_tiledL (runLast c i arg3 harg3 arg4 harg4 arg5 harg5 arg6 harg6 arg7 harg7 arg8 harg8 hc0 hc1 x0 x1 x2 x3 x4 xo).1 S2048x1408.size (by sl_kernel_rfl) y

/-- What this case leaves in the output's staging buffer: its stores read back. -/
def outLast (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : condLast i)
    (x0 : Vec F S2048x256 .bf16) (x1 : Vec F S1408x256 .i32) (x2 : Vec F S1408x1 .f32) (x3 : Vec F S1408x1 .f32) (x4 : Vec F S1x1408 .f32) (xo : Vec F S2048x1408 .f32) : Vec F S2048x1408 .f32 :=
  VO.read (Elt F) (VO.writes (Elt F) VO.junk (runLast c i arg3 harg3 arg4 harg4 arg5 harg5 arg6 harg6 arg7 harg7 arg8 harg8 hc0 hc1 x0 x1 x2 x3 x4 xo).1)

/-- At k = 15 the block ends at the bias step applied to the product step applied to what it held. -/
theorem outLast_eq (c : Dev nD) (i : grid0.Coords)
    (arg3 : Memref sig .tc .vmem S2048x256 .bf16) (harg3 : arg3.IsWhole) (arg4 : Memref sig .tc .vmem S1408x256 .i32) (harg4 : arg4.IsWhole)
    (arg5 : Memref sig .tc .vmem S1408x1 .f32) (harg5 : arg5.IsWhole) (arg6 : Memref sig .tc .vmem S1408x1 .f32) (harg6 : arg6.IsWhole)
    (arg7 : Memref sig .tc .vmem S1x1408 .f32) (harg7 : arg7.IsWhole) (arg8 : Memref sig .tc .vmem S2048x1408 .f32) (harg8 : arg8.IsWhole)
    (hc0 : ¬condFirst i) (hc1 : condLast i)
    (x0 : Vec F S2048x256 .bf16) (x1 : Vec F S1408x256 .i32) (x2 : Vec F S1408x1 .f32) (x3 : Vec F S1408x1 .f32) (x4 : Vec F S1x1408 .f32) (xo : Vec F S2048x1408 .f32) :
    outLast c i arg3 harg3 arg4 harg4 arg5 harg5 arg6 harg6 arg7 harg7 arg8 harg8 hc0 hc1 x0 x1 x2 x3 x4 xo
      = k0_pay3 (k0_pay2 x0 x1 x3 x2 xo) x4 := by
  unfold outLast
  rw [View.read_writes_eq_canon _ _ _ (coverLast c i arg3 harg3 arg4 harg4 arg5 harg5 arg6 harg6 arg7 harg7 arg8 harg8 hc0 hc1 x0 x1 x2 x3 x4 xo)]
  unfold runLast
  dsimp only
  sl_unfold_words
  have hz := zeros2
  rw [View.canon_cons_unit_zero hz, View.readCov_unit_zero _ hz]
  simp only [View.readAt_eq_ld, harg3.read_unread, harg4.read_unread, harg5.read_unread, harg6.read_unread, harg7.read_unread, harg8.read_unread,
    View.ld_unit_zero (S := S2048x256) hz, View.ld_unit_zero (S := S1408x256) hz, View.ld_unit_zero (S := S1408x1) hz,
    View.ld_unit_zero (S := S1x1408) hz, View.ld_unit_zero (S := S2048x1408) hz]

end Cert.KernelIdeal.Body

end
-- ==== Proof.IdealBody.lean ====
/-
  The body's obligation at every grid point, the run of the whole program, and the result array after it.

  At each point the five input buffers arrive holding their blocks (anything past the arrays' ends) and the output buffer
  what the point before left (anything at k = 0, and anything in the columns past the result's end); the case of the body
  the point is in runs, and on the columns inside the result the output buffer ends at the accumulated block. After the
  last k of each (i, j) the block is written back, so the result ends, at every entry, at the whole dot product plus the
  bias.
-/
import proofs.«113607_j58660663329081_2_alg».proof.Proof.IdealStep
import proofs.«113607_j58660663329081_2_alg».proof.Proof.IdealPieces

set_option maxRecDepth 16384

noncomputable section

open scoped BigOperators

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Each window's current staging buffer at a point, as the pipeline passes it to the body. -/
abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1408x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1408x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1408x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1408 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x1408 .f32 := win0_5.stage (cfg0.slots t 5)
abbrev hs5 (t : Fin cfg0.N) : (ms5 t).IsWhole := hstage0_5 ((cfg0.slots t 5).cast nbuf0_5)

/-- Contents of the output block that agree with the accumulated block at every entry inside the result are the
    accumulated block on the part that is written back, filled out with themselves. -/
theorem fill_cut_of_apply (c : Dev nD) (t : Fin cfg0.N) (out : S2048x1408.Idx → EReal)
    (hout : ∀ (p : Fin 2048) (cc : Fin 1408), (gj t).val * 1408 + cc.val < 11008 → out (ix2 p cc) = acc m c (gi t) (gj t) (gk t) (ix2 p cc)) :
    out = win0_5.fill (grid0.coords t) out (win0_5.cut (grid0.coords t) (acc m c (gi t) (gj t) (gk t))) := by
  have hc : win0_5.cut (grid0.coords t) out = win0_5.cut (grid0.coords t) (acc m c (gi t) (gj t) (gk t)) := funext fun y => by
    have h0 : (y 0).val < win0_5.xsize (grid0.coords t) 0 := (y 0).isLt
    have h1 : (y 1).val < win0_5.xsize (grid0.coords t) 1 := (y 1).isLt
    rw [(xsize_5 t).1] at h0
    rw [(xsize_5 t).2] at h1
    have e : win0_5.xinj (grid0.coords t) y = ix2 (⟨(y 0).val, h0⟩ : Fin 2048) (⟨(y 1).val, by omega⟩ : Fin 1408) :=
      funext fun a => Fin.ext (by match a with | ⟨0, _⟩ => rfl | ⟨1, _⟩ => rfl)
    show out (win0_5.xinj (grid0.coords t) y) = acc m c (gi t) (gj t) (gk t) (win0_5.xinj (grid0.coords t) y)
    rw [e]
    exact hout _ _ (by show (gj t).val * 1408 + (y 1).val < 11008; omega)
  rw [← hc, Window.fill_cut]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns: the clipped windows' buffers stated on the part their transfers move. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t))))
    ∗ (∃ d, owns (c : Thread nD τ) (ms4 t) fullShare (win0_4.fill (grid0.coords t) d (win0_4.cut (grid0.coords t) ((dats m 0 c).after 4 t))))
    ∗ (∃ d, owns (c : Thread nD τ) (ms5 t) fullShare (win0_5.fill (grid0.coords t) d (win0_5.cut (grid0.coords t) ((dats m 0 c).after 5 t)))))

set_option maxHeartbeats 1600000 in
/-- The body at any point: by the case the point's k selects. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  by_cases h0 : t.val % 16 = 0
  · rw [before_5_first m c t h0 d5]
    iapply ((runFirst c (grid0.coords t) (ms0 t) (hs0 t) (ms1 t) (hs1 t) (ms2 t) (hs2 t) (ms3 t) (hs3 t) (ms4 t) (hs4 t) (ms5 t) (hs5 t) ((hcondFirst t).mpr h0) (fun h => by have := (hcondLast t).mp h; omega)
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t))).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · rw [after_0]; iexact H0
    isplitl [H1]; · iexists d1; rw [after_1, Window.cut_fill]; iexact H1
    isplitl [H2]; · iexists d2; rw [after_2, Window.cut_fill]; iexact H2
    isplitl [H3]; · iexists d3; rw [after_3, Window.cut_fill]; iexact H3
    isplitl [H4]; · iexists d4; rw [after_4, Window.cut_fill]; iexact H4
    iexists (outFirst c (grid0.coords t) (ms0 t) (hs0 t) (ms1 t) (hs1 t) (ms2 t) (hs2 t) (ms3 t) (hs3 t) (ms4 t) (hs4 t) (ms5 t) (hs5 t) ((hcondFirst t).mpr h0) (fun h => by have := (hcondLast t).mp h; omega)
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)))
    unfold owns; iexists _; isplitr
    swap; · iexact H5
    ipureintro
    rw [after_5]
    refine (View.read_writes_of_cover _ _ VO VO.junk _ (coverFirst c (grid0.coords t) (ms0 t) (hs0 t) (ms1 t) (hs1 t) (ms2 t) (hs2 t) (ms3 t) (hs3 t) (ms4 t) (hs4 t) (ms5 t) (hs5 t) _ _ _ _ _ _ _)).trans ?_
    exact fill_cut_of_apply m c t _ fun p cc h => by
      exact (congrFun (outFirst_eq c (grid0.coords t) (ms0 t) (hs0 t) (ms1 t) (hs1 t) (ms2 t) (hs2 t) (ms3 t) (hs3 t) (ms4 t) (hs4 t) (ms5 t) (hs5 t) _ _
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t))) (ix2 p cc)).trans (step_first m c t h0 (iblk m c 0 t) rfl d1 d2 d3 p cc h)
  by_cases h15 : t.val % 16 = 15
  · iapply ((runLast c (grid0.coords t) (ms0 t) (hs0 t) (ms1 t) (hs1 t) (ms2 t) (hs2 t) (ms3 t) (hs3 t) (ms4 t) (hs4 t) (ms5 t) (hs5 t) (fun h => h0 ((hcondFirst t).mp h)) ((hcondLast t).mpr h15)
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)) ((dats m 0 c).before 5 t d5)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · rw [after_0]; iexact H0
    isplitl [H1]; · iexists d1; rw [after_1, Window.cut_fill]; iexact H1
    isplitl [H2]; · iexists d2; rw [after_2, Window.cut_fill]; iexact H2
    isplitl [H3]; · iexists d3; rw [after_3, Window.cut_fill]; iexact H3
    isplitl [H4]; · iexists d4; rw [after_4, Window.cut_fill]; iexact H4
    iexists (outLast c (grid0.coords t) (ms0 t) (hs0 t) (ms1 t) (hs1 t) (ms2 t) (hs2 t) (ms3 t) (hs3 t) (ms4 t) (hs4 t) (ms5 t) (hs5 t) (fun h => h0 ((hcondFirst t).mp h)) ((hcondLast t).mpr h15)
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)) ((dats m 0 c).before 5 t d5))
    unfold owns; iexists _; isplitr
    swap; · iexact H5
    ipureintro
    rw [after_5]
    refine (View.read_writes_of_cover _ _ VO VO.junk _ (coverLast c (grid0.coords t) (ms0 t) (hs0 t) (ms1 t) (hs1 t) (ms2 t) (hs2 t) (ms3 t) (hs3 t) (ms4 t) (hs4 t) (ms5 t) (hs5 t) _ _ _ _ _ _ _ _)).trans ?_
    exact fill_cut_of_apply m c t _ fun p cc h => by
      exact (congrFun (outLast_eq c (grid0.coords t) (ms0 t) (hs0 t) (ms1 t) (hs1 t) (ms2 t) (hs2 t) (ms3 t) (hs3 t) (ms4 t) (hs4 t) (ms5 t) (hs5 t) _ _
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)) ((dats m 0 c).before 5 t d5)) (ix2 p cc)).trans (step_last m c t h15 (iblk m c 0 t) rfl d1 d2 d3 d4 d5 p cc h)
  · iapply ((runMiddle c (grid0.coords t) (ms0 t) (hs0 t) (ms1 t) (hs1 t) (ms2 t) (hs2 t) (ms3 t) (hs3 t) (ms4 t) (hs4 t) (ms5 t) (hs5 t) (fun h => h0 ((hcondFirst t).mp h)) (fun h => h15 ((hcondLast t).mp h))
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)) ((dats m 0 c).before 5 t d5)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · rw [after_0]; iexact H0
    isplitl [H1]; · iexists d1; rw [after_1, Window.cut_fill]; iexact H1
    isplitl [H2]; · iexists d2; rw [after_2, Window.cut_fill]; iexact H2
    isplitl [H3]; · iexists d3; rw [after_3, Window.cut_fill]; iexact H3
    isplitl [H4]; · iexists d4; rw [after_4, Window.cut_fill]; iexact H4
    iexists (outMiddle c (grid0.coords t) (ms0 t) (hs0 t) (ms1 t) (hs1 t) (ms2 t) (hs2 t) (ms3 t) (hs3 t) (ms4 t) (hs4 t) (ms5 t) (hs5 t) (fun h => h0 ((hcondFirst t).mp h)) (fun h => h15 ((hcondLast t).mp h))
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)) ((dats m 0 c).before 5 t d5))
    unfold owns; iexists _; isplitr
    swap; · iexact H5
    ipureintro
    rw [after_5]
    refine (View.read_writes_of_cover _ _ VO VO.junk _ (coverMiddle c (grid0.coords t) (ms0 t) (hs0 t) (ms1 t) (hs1 t) (ms2 t) (hs2 t) (ms3 t) (hs3 t) (ms4 t) (hs4 t) (ms5 t) (hs5 t) _ _ _ _ _ _ _ _)).trans ?_
    exact fill_cut_of_apply m c t _ fun p cc h => by
      exact (congrFun (outMiddle_eq c (grid0.coords t) (ms0 t) (hs0 t) (ms1 t) (hs1 t) (ms2 t) (hs2 t) (ms3 t) (hs3 t) (ms4 t) (hs4 t) (ms5 t) (hs5 t) _ _
        (iblk m c 0 t) (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)) ((dats m 0 c).before 5 t d5)) (ix2 p cc)).trans (step_middle m c t h0 h15 (iblk m c 0 t) rfl d1 d2 d3 d5 p cc h)

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Body

end
-- ==== Proof.IdealHost.lean ====
/-
  What the region finds in the four arrays @main computes on the host before it.

  Before the region @main converts x to bf16, reshapes the scales and the zero points from [11008] to [11008, 1], and
  reshapes the bias from [11008] to [1, 11008]. On the extended reals the conversion is the identity, and a reshape
  keeps the elements in row-major order; so, read at an element, each of the four arrays holds the element of the
  argument it was made from: x at (r, k), the scale, zero point and bias at o.
-/
import proofs.«113607_j58660663329081_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo

/-- An [a] array cast to [a, 1] reads, at (i, u), the operand at i, whatever the unit coordinate u: the two indices
    have the same row-major position, i * 1 + 0 = i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (c : Dev nD)

/-- x converted to bf16 is x: on the extended reals the conversion is the identity. -/
theorem V_x (r kk : Fin 4096) :
    (V m c main_v0 : S4096x4096.Idx → EReal) (ix2 r kk) = (m ((c.tc : Thread nD τ).loc main_arg0) : S4096x4096.Idx → EReal) (ix2 r kk) := by
  have e : (V m c main_v0 : S4096x4096.Idx → EReal)
      = truncf (F := Ideal) .bf16 (m ((c.tc : Thread nD τ).loc main_arg0) : S4096x4096.Idx → EReal) bitsLt_bf16_f32 := by
    dsimp only [Gen.V, Gen.hostOps0]; after_results
  rw [e]; rfl

/-- The scales as a column: entry (o, 0) is scale o. -/
theorem V_scale (o : Fin 11008) :
    (V m c main_v1 : S11008x1.Idx → EReal) (ix2 o (0 : Fin 1)) = (m ((c.tc : Thread nD τ).loc main_arg2) : S11008.Idx → EReal) (ix1 o) := by
  have e : (V m c main_v1 : S11008x1.Idx → EReal)
      = shapeCast S11008x1 (m ((c.tc : Thread nD τ).loc main_arg2) : S11008.Idx → EReal) shapeCasts_S11008_S11008x1 := by
    dsimp only [Gen.V, Gen.hostOps0]; after_results; rfl
  rw [e]; exact shapeCast_a_a1_apply _ _ o 0

/-- The zero points as a column: entry (o, 0) is zero point o. -/
theorem V_zero (o : Fin 11008) :
    (V m c main_v2 : S11008x1.Idx → EReal) (ix2 o (0 : Fin 1)) = (m ((c.tc : Thread nD τ).loc main_arg3) : S11008.Idx → EReal) (ix1 o) := by
  have e : (V m c main_v2 : S11008x1.Idx → EReal)
      = shapeCast S11008x1 (m ((c.tc : Thread nD τ).loc main_arg3) : S11008.Idx → EReal) shapeCasts_S11008_S11008x1 := by
    dsimp only [Gen.V, Gen.hostOps0]; after_results; rfl
  rw [e]; exact shapeCast_a_a1_apply _ _ o 0

/-- The bias as a row: entry (0, o) is bias o. -/
theorem V_bias (o : Fin 11008) :
    (V m c main_v3 : S1x11008.Idx → EReal) (ix2 (0 : Fin 1) o) = (m ((c.tc : Thread nD τ).loc main_arg4) : S11008.Idx → EReal) (ix1 o) := by
  have e : (V m c main_v3 : S1x11008.Idx → EReal)
      = shapeCast S1x11008 (m ((c.tc : Thread nD τ).loc main_arg4) : S11008.Idx → EReal) shapeCasts_S11008_S1x11008 := by
    dsimp only [Gen.V, Gen.hostOps0]; after_results; rfl
  rw [e]; exact shapeCast_a_1a_apply _ _ 0 o

end Cert.KernelIdeal.Body

end
-- ==== Proof.IdealFinal.lean ====
/-
  The run of the idealized kernel and what its result array holds after it.

  Every (i, j) has a last point, k = 15, which writes the output block back; what it writes, on the columns inside the
  result, is the whole dot product of 4096 terms plus the bias, at the entry's place in the result. These blocks cover
  the result, so the result ends holding, at every (r, o), the dot product of row r of x with row o of the dequantised
  weights plus bias o. The arrays the region reads are the arguments themselves (x converted, which is the identity here;
  the three vectors reshaped), so this is the quantised linear layer of the five arguments.
-/
import proofs.«113607_j58660663329081_2_alg».proof.Proof.IdealBody
import proofs.«113607_j58660663329081_2_alg».proof.Proof.IdealHost

set_option maxRecDepth 16384

noncomputable section

open scoped BigOperators

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- Every weakly fair execution of the program terminates without a fault, every array of the pipeline ending at what the
    write-backs of the proof data make of it and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The result in terms of the arrays the region reads: the whole dot product plus the bias. -/
def GV (c : Dev nD) : S4096x11008.Idx → EReal := fun i =>
  QLinear.pdot (xrow m c (i 0)) (wrow m c (i 1)) 4096 + biasAt m c (i 1)

/-- What the last point of an (i, j) writes back is its block of `GV`. -/
theorem flushed_eq (c : Dev nD) (t : Fin cfg0.N) (h15 : t.val % 16 = 15) :
    (dats m 0 c).flushed 5 t = ((cfg0.win 5).blk t).view.read (Elt Ideal) (GV m c) := by
  funext y
  have h0 : (y 0).val < win0_5.xsize (grid0.coords t) 0 := (y 0).isLt
  have h1 : (y 1).val < win0_5.xsize (grid0.coords t) 1 := (y 1).isLt
  rw [(xsize_5 t).1] at h0
  rw [(xsize_5 t).2] at h1
  have hin : (gj t).val * 1408 + (y 1).val < 11008 := by omega
  have hk : (gk t).val = 15 := by rw [gk_val]; exact h15
  have e : win0_5.xinj (grid0.coords t) y = ix2 (⟨(y 0).val, h0⟩ : Fin 2048) (⟨(y 1).val, by omega⟩ : Fin 1408) :=
    funext fun a => Fin.ext (by match a with | ⟨0, _⟩ => rfl | ⟨1, _⟩ => rfl)
  have ee : ((cfg0.win 5).blk t).view.emb y
      = ix2 (⟨(gi t).val * 2048 + (y 0).val, by have := gi_lt t; omega⟩ : Fin 4096) (⟨(gj t).val * 1408 + (y 1).val, hin⟩ : Fin 11008) :=
    funext fun a => Fin.ext (by
      match a with
      | ⟨0, _⟩ => show win0_5.index t 0 * 2048 + 1 * (y 0).val = (gi t).val * 2048 + (y 0).val; rw [(index_5 t).1]; omega
      | ⟨1, _⟩ => show win0_5.index t 1 * 1408 + 1 * (y 1).val = (gj t).val * 1408 + (y 1).val; rw [(index_5 t).2]; omega)
  show (dats m 0 c).after 5 t (win0_5.xinj (grid0.coords t) y) = GV m c (((cfg0.win 5).blk t).view.emb y)
  rw [after_5, e, ee, acc_apply m c (gi t) (gj t) (gk t) _ _ hin, if_pos hk, hk]
  rfl

/-- Every entry of the result is in the block some last point writes back. -/
theorem exists_last : ∀ (a : Fin 2) (b : Fin 8), ∃ t : Fin cfg0.N, t.val % 16 = 15 ∧ (gi t).val = a.val ∧ (gj t).val = b.val :=
  (by decide +kernel : ∀ (a : Fin 2) (b : Fin 8), ∃ t : Fin grid0.N, t.val % 16 = 15 ∧ (grid0.coords t 0).val = a.val ∧ (grid0.coords t 1).val = b.val)

theorem cover (i : S4096x11008.Idx) : ∃ t : Fin cfg0.N, (cfg0.win 5).flush t = true ∧ i ∈ ((cfg0.win 5).blk t).view.set := by
  have hi0 := idx2_lt0 i
  have hi1 := idx2_lt1 i
  obtain ⟨t, h15, ha, hb⟩ := exists_last ⟨(i 0).val / 2048, by omega⟩ ⟨(i 1).val / 1408, by omega⟩
  have hav : (gi t).val = (i 0).val / 2048 := ha
  have hbv : (gj t).val = (i 1).val / 1408 := hb
  refine ⟨t, (flush0_5 t).mpr h15, ?_⟩
  show i ∈ ((View.whole main_v4).slice (win0_5.rect t)).set
  rw [View.set_slice_whole, Rect.mem_set_unit]
  intro a
  match a with
  | ⟨0, _⟩ =>
    show win0_5.index t 0 * 2048 ≤ (i 0).val ∧ (i 0).val < win0_5.index t 0 * 2048 + win0_5.xsize (grid0.coords t) 0
    rw [(index_5 t).1, (xsize_5 t).1]; omega
  | ⟨1, _⟩ =>
    show win0_5.index t 1 * 1408 ≤ (i 1).val ∧ (i 1).val < win0_5.index t 1 * 1408 + win0_5.xsize (grid0.coords t) 1
    rw [(index_5 t).2, (xsize_5 t).2]; omega

/-- The result array after the run. -/
theorem final (c : Dev nD) : (dats m 0 c).arrAt 5 cfg0.N = GV m c :=
  (dats m 0 c).arrAt_eq_of_cover 5 (GV m c) (fun t hf => flushed_eq m c t ((flush0_5 t).mp hf)) cover

/-- `GV` is the quantised linear layer of the five arguments. -/
theorem GV_eq (c : Dev nD) :
    GV m c = QLinear.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  funext i
  unfold GV QLinear.G
  rw [QLinear.pdot_full]
  unfold xrow wrow biasAt
  rw [V_bias m c (i 1)]
  refine congrArg (· + _) (Finset.sum_congr rfl fun kk _ => ?_)
  rw [V_x m c (i 0) kk, V_zero m c (i 1), V_scale m c (i 1), V_main_arg1 m c]

/-- The value run: the result ends at the quantised linear layer of the arguments, the arguments unchanged. -/
theorem run_value : θ_run defs (onTc (τ := τ) (main (F := Ideal))) ⟨m, fun _ => 0, ρ⟩ (fun r => ∀ c : Dev nD,
      r.2.mem ((c.tc : Thread nD τ).loc main_v4) = QLinear.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans ((final m c).trans (GV_eq m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Body

end
-- ==== Proof.RefG.lean ====
/-
  The reference program as one function of its five arguments.

  The reference dequantises the weights (each read as a signed integer, less its row's zero point, times its row's
  scale), contracts row r of x with row o of the dequantised weights over the 4096 input features, and adds bias o.
  Read one operation at a time at an entry (r, o), every layout operation (the broadcasts) only moves the index, to the
  entry's row r or column o, and every arithmetic operation is exact on the extended reals; so the value the program
  returns is the closed form G, entry by entry.
-/
import proofs.«113607_j58660663329081_2_alg».proof.Proof.Gen.ReferenceIdeal.Read
import proofs.«113607_j58660663329081_2_alg».proof.Proof.Spec

noncomputable section

open scoped BigOperators

namespace Cert.ReferenceIdeal.RefValue

open Cert.ReferenceIdeal Cert.ReferenceIdeal.Read Idealize.ShloMosaic Idealize.ShloMosaic.ValueIdx

/-! ## Where each operand is read for the entry i = (r, o) and the term k of the contraction -/

/-- x is read at (r, k). -/
theorem lidx_eq (i : S4096x11008.Idx) (k : Fin 4096) : (lidx_main_v7 i k : S4096x4096.Idx) = ix2 (i 0) k :=
  funext fun a => Fin.ext (by match a with | ⟨0, _⟩ => rfl | ⟨1, _⟩ => rfl)

/-- The weights are read at (o, k). -/
theorem ridx_eq (i : S4096x11008.Idx) (k : Fin 4096) : (ridx_main_v7 i k : S11008x4096.Idx) = ix2 (i 1) k :=
  funext fun a => Fin.ext (by match a with | ⟨0, _⟩ => rfl | ⟨1, _⟩ => rfl)

/-- The zero points, broadcast along the rows of the weights, are read at o. -/
theorem zidx_eq (i : S4096x11008.Idx) (k : Fin 4096) :
    (idx_main_v1 (idx_main_v2 (ridx_main_v7 i k)) : S11008.Idx) = ix1 (i 1) :=
  funext fun a => Fin.ext (by match a with | ⟨0, _⟩ => rfl)

/-- The scales, broadcast along the rows of the weights, are read at o. -/
theorem sidx_eq (i : S4096x11008.Idx) (k : Fin 4096) :
    (idx_main_v4 (idx_main_v5 (ridx_main_v7 i k)) : S11008.Idx) = ix1 (i 1) :=
  funext fun a => Fin.ext (by match a with | ⟨0, _⟩ => rfl)

/-- The bias, broadcast along the columns of the result, is read at o. -/
theorem bidx_eq (i : S4096x11008.Idx) : (idx_main_v8 (idx_main_v9 i) : S11008.Idx) = ix1 (i 1) :=
  funext fun a => Fin.ext (by match a with | ⟨0, _⟩ => rfl)

/-! ## The value -/

/-- The reference's result is G of its arguments: x, the quantised weights, the scales, the zero points, the bias. -/
theorem ref_eq_G (x0 : (⟨S4096x4096, .f32⟩ : BufTy).Contents (Elt Ideal)) (x1 : (⟨S11008x4096, .i32⟩ : BufTy).Contents (Elt Ideal))
    (x2 x3 x4 : (⟨S11008, .f32⟩ : BufTy).Contents (Elt Ideal)) :
    Cert.ReferenceIdeal.Read.val_main_v10 (F := Ideal) x0 x1 x2 x3 x4 = Cert.QLinear.G x0 x1 x2 x3 x4 := by
  funext i
  rw [val_main_v10_apply, val_main_v7_apply, val_main_v9_apply, val_main_v8_apply, Ideal.addf_def, bidx_eq i]
  unfold Cert.QLinear.G
  congr 1
  refine Finset.sum_congr rfl fun k _ => ?_
  rw [val_main_v6_apply, val_main_v3_apply, val_main_v0_apply, val_main_v2_apply, val_main_v1_apply,
    val_main_v5_apply, val_main_v4_apply, Ideal.mulf_def, Ideal.subf_def, zidx_eq i k, sidx_eq i k, lidx_eq i k, ridx_eq i k]
  rfl

end Cert.ReferenceIdeal.RefValue

end
-- ==== Proof.lean ====
/-
  A weight-only quantised linear layer, y = x · ((Wq − zero) · scale)ᵀ + bias, computed by a kernel that tiles the result
  in blocks of 2048 × 1408 and accumulates each block over sixteen slices of 256 along the contraction, against the plain
  whole-array formula.

  Over the extended reals a change of float format is the identity and addition is a commutative monoid, so sixteen
  partial sums of 256 products added in turn to a zeroed block are the one sum of 4096 products; the bias is added last
  on both sides. The tiles of 1408 columns do not divide the 11008 columns: the last tile of every input and of the
  result overhangs, and what the buffers hold past the arrays' ends is unknown. An entry of the product depends on one
  row of x and one row of the weights, so the entries that are written back, whose rows are inside the arrays, never read
  those unknown words; the equality needs no finiteness of the inputs.

  The word-level kernel's frame (it terminates, faults nowhere, and leaves its arguments as they were) is proved without
  naming what it computes; the idealized kernel's frame and value come from one run with the accumulated block named
  at every grid point; the reference's run is read operation by operation.
-/
import proofs.«113607_j58660663329081_2_alg».proof.Defs
import proofs.«113607_j58660663329081_2_alg».proof.Proof.Gen.Kernel
import proofs.«113607_j58660663329081_2_alg».proof.Proof.Gen.KernelIdeal
import proofs.«113607_j58660663329081_2_alg».proof.Proof.Gen.ReferenceIdeal
import proofs.«113607_j58660663329081_2_alg».proof.Proof.Gen.Pre_finite_inputs
import proofs.«113607_j58660663329081_2_alg».proof.Proof.Gen.ReferenceIdeal.Run
import proofs.«113607_j58660663329081_2_alg».proof.Proof.Gen.ReferenceIdeal.Read
import proofs.«113607_j58660663329081_2_alg».proof.Proof.BitsFrame
import proofs.«113607_j58660663329081_2_alg».proof.Proof.IdealFinal
import proofs.«113607_j58660663329081_2_alg».proof.Proof.RefG
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- Both idealized programs end with the result at the quantised linear layer of the arguments. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
